-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S1000000x8 : Shape := ⟨2, ![1000000, 8]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S1000000x8 : S_.BroadcastsInDim S1000000x8 (![] : Fin 0 → Fin S1000000x8.rank)
  reducesTo_S1000000x8_S_d0_1 : S1000000x8.ReducesTo [0, 1] S_

variable [Facts]

def fn_part2 {F : FTy → Type} [FloatOps F] (main_arg7 : FVec F S1000000 .f32) (main_arg8 : FVec F S1000000 .f32) (main_arg9 : FVec F S1000000 .f32) (main_v33 : IVec S_ 1) : IVec S_ 1 :=
  let main_v34 : FVec F S1000000 .f32 := Host.absf main_arg7
  let main_cst_12 : FVec F S_ .f32 := constant S_ .f32 0x7F800000#32
  let main_v35 : FVec F S1000000 .f32 := broadcastInDim S1000000 ![] bcast_S_S1000000 main_cst_12
  let main_v36 : IVec S1000000 1 := cmpf .olt main_v34 main_v35
  let main_c_13 : IVec S_ 1 := constantI S_ 1 1#1
  let main_v37 : IVec S_ 1 := (fun x v => Host.reduce IntOp.andi x v reducesTo_S1000000_S_d0 h_S_) main_v36 main_c_13
  let main_v38 : IVec S_ 1 := andi main_v33 main_v37
  let main_v39 : FVec F S1000000 .f32 := Host.absf main_arg8
  let main_cst_14 : FVec F S_ .f32 := constant S_ .f32 0x7F800000#32
  let main_v40 : FVec F S1000000 .f32 := broadcastInDim S1000000 ![] bcast_S_S1000000 main_cst_14
  let main_v41 : IVec S1000000 1 := cmpf .olt main_v39 main_v40
  let main_c_15 : IVec S_ 1 := constantI S_ 1 1#1
  let main_v42 : IVec S_ 1 := (fun x v => Host.reduce IntOp.andi x v reducesTo_S1000000_S_d0 h_S_) main_v41 main_c_15
  let main_v43 : IVec S_ 1 := andi main_v38 main_v42
  let main_v44 : FVec F S1000000 .f32 := Host.absf main_arg9
  let main_cst_16 : FVec F S_ .f32 := constant S_ .f32 0x7F800000#32
  let main_v45 : FVec F S1000000 .f32 := broadcastInDim S1000000 ![] bcast_S_S1000000 main_cst_16
  let main_v46 : IVec S1000000 1 := cmpf .olt main_v44 main_v45
  let main_c_17 : IVec S_ 1 := constantI S_ 1 1#1
  let main_v47 : IVec S_ 1 := (fun x v => Host.reduce IntOp.andi x v reducesTo_S1000000_S_d0 h_S_) main_v46 main_c_17
  let main_v48 : IVec S_ 1 := andi main_v43 main_v47
  main_v48

def fn_part1 {F : FTy → Type} [FloatOps F] (main_arg4 : FVec F S1000000 .f32) (main_arg5 : FVec F S1000000 .f32) (main_arg6 : FVec F S1000000 .f32) (main_arg7 : FVec F S1000000 .f32) (main_arg8 : FVec F S1000000 .f32) (main_arg9 : FVec F S1000000 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S1000000 .f32 := Host.absf main_arg5
  let main_cst_8 : FVec F S_ .f32 := constant S_ .f32 0x7F800000#32
  let main_v25 : FVec F S1000000 .f32 := broadcastInDim S1000000 ![] bcast_S_S1000000 main_cst_8
  let main_v26 : IVec S1000000 1 := cmpf .olt main_v24 main_v25
  let main_c_9 : IVec S_ 1 := constantI S_ 1 1#1
  let main_v27 : IVec S_ 1 := (fun x v => Host.reduce IntOp.andi x v reducesTo_S1000000_S_d0 h_S_) main_v26 main_c_9
  let main_v28 : IVec S_ 1 := andi main_v23 main_v27
  let main_v29 : FVec F S1000000 .f32 := Host.absf main_arg6
  let main_cst_10 : FVec F S_ .f32 := constant S_ .f32 0x7F800000#32
  let main_v30 : FVec F S1000000 .f32 := broadcastInDim S1000000 ![] bcast_S_S1000000 main_cst_10
  let main_v31 : IVec S1000000 1 := cmpf .olt main_v29 main_v30
  let main_c_11 : IVec S_ 1 := constantI S_ 1 1#1
  let main_v32 : IVec S_ 1 := (fun x v => Host.reduce IntOp.andi x v reducesTo_S1000000_S_d0 h_S_) main_v31 main_c_11
  let main_v33 : IVec S_ 1 := andi main_v28 main_v32
  fn_part2 (F := F) main_arg7 main_arg8 main_arg9 main_v33

def fn {F : FTy → Type} [FloatOps F] (main_arg0 : FVec F S1000000x128 .f32) (main_arg1 : FVec F S1000000 .f32) (main_arg2 : FVec F S1000000x8 .f32) (main_arg3 : FVec F S1000000 .f32) (main_arg4 : FVec F S1000000 .f32) (main_arg5 : FVec F S1000000 .f32) (main_arg6 : FVec F S1000000 .f32) (main_arg7 : FVec F S1000000 .f32) (main_arg8 : FVec F S1000000 .f32) (main_arg9 : FVec F S1000000 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S1000000x8 .f32 := Host.absf main_arg2
  let main_cst_2 : FVec F S_ .f32 := constant S_ .f32 0x7F800000#32
  let main_v10 : FVec F S1000000x8 .f32 := broadcastInDim S1000000x8 ![] bcast_S_S1000000x8 main_cst_2
  let main_v11 : IVec S1000000x8 1 := cmpf .olt main_v9 main_v10
  let main_c_3 : IVec S_ 1 := constantI S_ 1 1#1
  let main_v12 : IVec S_ 1 := (fun x v => Host.reduce IntOp.andi x v reducesTo_S1000000x8_S_d0_1 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg6 main_arg7 main_arg8 main_arg9 main_v13 main_v16
-- ==== Kernel.lean ====
abbrev S1000000x128 : Shape := ⟨2, ![1000000, 128]⟩
abbrev S1000000 : Shape := ⟨1, ![1000000]⟩
abbrev S1000000x8 : Shape := ⟨2, ![1000000, 8]⟩
abbrev S1000000x1 : Shape := ⟨2, ![1000000, 1]⟩
abbrev S1000000x13 : Shape := ⟨2, ![1000000, 13]⟩
abbrev S10000x128 : Shape := ⟨2, ![10000, 128]⟩
abbrev S10000x8 : Shape := ⟨2, ![10000, 8]⟩
abbrev S10000x13 : Shape := ⟨2, ![10000, 13]⟩
abbrev S10000x1 : Shape := ⟨2, ![10000, 1]⟩
abbrev S10000x16 : Shape := ⟨2, ![10000, 16]⟩
abbrev S10000 : Shape := ⟨1, ![10000]⟩

abbrev nBuf : Space → Nat
  | .hbm => 20
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000, .f32⟩
  | .hbm, ⟨2, _⟩ => ⟨S1000000x8, .f32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S1000000, .f32⟩
  | .hbm, ⟨10, _⟩ => ⟨S1000000x1, .f32⟩
  | .hbm, ⟨11, _⟩ => ⟨S1000000x1, .f32⟩
  | .hbm, ⟨12, _⟩ => ⟨S1000000x1, .f32⟩
  | .hbm, ⟨13, _⟩ => ⟨S1000000x1, .f32⟩
  | .hbm, ⟨14, _⟩ => ⟨S1000000x1, .f32⟩
  | .hbm, ⟨15, _⟩ => ⟨S1000000x1, .f32⟩
  | .hbm, ⟨16, _⟩ => ⟨S1000000x1, .f32⟩
  | .hbm, ⟨17, _⟩ => ⟨S1000000x1, .f32⟩
  | .hbm, ⟨18, _⟩ => ⟨S1000000x8, .f32⟩
  | .hbm, ⟨19, _⟩ => ⟨S1000000x13, .f32⟩
  | .local _ .vmem, ⟨0, _⟩ => ⟨S10000x128, .f32⟩
  | .local _ .vmem, ⟨1, _⟩ => ⟨S10000x128, .f32⟩
  | .local _ .vmem, ⟨2, _⟩ => ⟨S10000x8, .f32⟩
  | .local _ .vmem, ⟨3, _⟩ => ⟨S10000x8, .f32⟩
  | .local _ .vmem, ⟨4, _⟩ => ⟨S10000x8, .f32⟩
  | .local _ .vmem, ⟨5, _⟩ => ⟨S10000x8, .f32⟩
  | .local _ .vmem, ⟨6, _⟩ => ⟨S10000x13, .f32⟩
  | .local _ .vmem, ⟨7, _⟩ => ⟨S10000x13, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1000000_S1000000x1_0 : S1000000.BroadcastsInDim S1000000x1 (![0] : Fin 1 → Fin S1000000x1.rank)
  concatenates_S1000000x1_S1000000x1_S1000000x1_S1000000x1_S1000000x1_S1000000x1_S1000000x1_S1000000x1_S1000000x8_d1 : Shape.Concatenates [S1000000x1, S1000000x1, S1000000x1, S1000000x1, S1000000x1, S1000000x1, S1000000x1, S1000000x1] S1000000x8 1
  inb_S10000x128_S10000x128_0_0 : ∀ a, (![0, 0] : Fin 2 → Nat) a + S10000x128.size a ≤ S10000x128.size a
  h_S10000x128 : 0 < S10000x128.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  slices_S10000x8_o0_0_S10000x1 : S10000x8.Slices ![0, 0] S10000x1
  slices_S10000x8_o0_1_S10000x1 : S10000x8.Slices ![0, 1] S10000x1
  slices_S10000x8_o0_2_S10000x1 : S10000x8.Slices ![0, 2] S10000x1
  slices_S10000x8_o0_3_S10000x1 : S10000x8.Slices ![0, 3] S10000x1
  slices_S10000x8_o0_4_S10000x1 : S10000x8.Slices ![0, 4] S10000x1
  slices_S10000x8_o0_5_S10000x1 : S10000x8.Slices ![0, 5] S10000x1
  slices_S10000x8_o0_6_S10000x1 : S10000x8.Slices ![0, 6] S10000x1
  slices_S10000x8_o0_7_S10000x1 : S10000x8.Slices ![0, 7] S10000x1
  slices_S10000x128_o0_0_S10000x16 : S10000x128.Slices ![0, 0] S10000x16
  reduces_S10000x16_S10000 : S10000x16.Reduces [1] S10000
  shapeCasts_S10000_S10000x1 : S10000.ShapeCasts S10000x1
  slices_S10000x128_o0_16_S10000x16 : S10000x128.Slices ![0, 16] S10000x16
  slices_S10000x128_o0_32_S10000x16 : S10000x128.Slices ![0, 32] S10000x16
  slices_S10000x128_o0_48_S10000x16 : S10000x128.Slices ![0, 48] S10000x16
  slices_S10000x128_o0_64_S10000x16 : S10000x128.Slices ![0, 64] S10000x16
  slices_S10000x128_o0_80_S10000x16 : S10000x128.Slices ![0, 80] S10000x16
  slices_S10000x128_o0_96_S10000x16 : S10000x128.Slices ![0, 96] S10000x16
  slices_S10000x128_o0_112_S10000x16 : S10000x128.Slices ![0, 112] S10000x16
  concatenates_S10000x1_S10000x1_S10000x1_S10000x1_S10000x1_S10000x1_S10000x1_S10000x1_S10000x8_d1 : Shape.Concatenates [S10000x1, S10000x1, S10000x1, S10000x1, S10000x1, S10000x1, S10000x1, S10000x1] S10000x8 1
  reduces_S10000x8_S10000 : S10000x8.Reduces [1] S10000
  natLt_1_32 : 1 < 32
  concatenates_S10000x1_S10000x1_S10000x1_S10000x8_S10000x1_S10000x1_S10000x13_d1 : Shape.Concatenates [S10000x1, S10000x1, S10000x1, S10000x8, S10000x1, S10000x1] S10000x13 1
  inb_S10000x13_S10000x13_0_0 : ∀ a, (![0, 0] : Fin 2 → Nat) a + S10000x13.size a ≤ S10000x13.size a
  h_S10000x13 : 0 < S10000x13.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x8.size a ≤ S1000000x8.size a
  hwx0_1 : ∀ i : grid0.Coords, EltTy.bits .f32 = 32 ∨ (Rect.block (s := S1000000x8) S10000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x8.size a ≤ S1000000x8.size a
  hwx0_2 : ∀ i : grid0.Coords, EltTy.bits .f32 = 32 ∨ (Rect.block (s := S1000000x8) S10000x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x13.size a ≤ S1000000x13.size a
  hwx0_3 : ∀ i : grid0.Coords, EltTy.bits .f32 = 32 ∨ (Rect.block (s := S1000000x13) S10000x13.size (cc0_transform_3 i) (hinb0_3 i)).WholeWords (EltTy.packing .f32)

variable [Facts₀]

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S10000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S10000x13.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S1000000x8 : Shape := ⟨2, ![1000000, 8]⟩
abbrev S1000000x8x16 : Shape := ⟨3, ![1000000, 8, 16]⟩
abbrev S_ : Shape := ⟨0, ![]⟩
abbrev S1000000x1 : Shape := ⟨2, ![1000000, 1]⟩
abbrev S1000000x13 : Shape := ⟨2, ![1000000, 13]⟩

abbrev nBuf : Space → Nat
  | .hbm => 243
  | .vmem => 0
  | .smem => 0
  | _ => 0

abbrev hbmTy0_0 (i : Nat) : BufTy := match i % 128 with
  | 0 => ⟨S1000000x128, .f32⟩
  | 1 => ⟨S1000000, .f32⟩
  | 2 => ⟨S1000000x8, .f32⟩
  | 3 => ⟨S1000000, .f32⟩
  | 4 => ⟨S1000000, .f32⟩
  | 5 => ⟨S1000000, .f32⟩
  | 6 => ⟨S1000000, .f32⟩
  | 7 => ⟨S1000000, .f32⟩
  | 8 => ⟨S1000000, .f32⟩
  | 9 => ⟨S1000000, .f32⟩
  | 10 => ⟨S1000000x8x16, .f32⟩
  | 11 => ⟨S_, .f32⟩
  | 12 => ⟨S1000000x8, .f32⟩
  | 13 => ⟨S_, .f32⟩
  | 14 => ⟨S1000000x8, .f32⟩
  | 15 => ⟨S1000000x8, .f32⟩
  | 16 => ⟨S1000000x8, .f32⟩
  | 17 => ⟨S_, .f32⟩
  | 18 => ⟨S1000000x8, .f32⟩
  | 19 => ⟨S1000000x8, .f32⟩
  | 20 => ⟨S_, .f32⟩
  | 21 => ⟨S1000000x8, .f32⟩
  | 22 => ⟨S1000000x8, .f32⟩
  | 23 => ⟨S_, .f32⟩
  | 24 => ⟨S1000000x8, .f32⟩
  | 25 => ⟨S1000000x8, .f32⟩
  | 26 => ⟨S1000000x8, .f32⟩
  | 27 => ⟨S1000000x8, .f32⟩
  | 28 => ⟨S1000000x8, .f32⟩
  | 29 => ⟨S_, .f32⟩
  | 30 => ⟨S1000000x8, .f32⟩
  | 31 => ⟨S1000000x8, .f32⟩
  | 32 => ⟨S1000000x8, .f32⟩
  | 33 => ⟨S_, .f32⟩
  | 34 => ⟨S1000000, .f32⟩
  | 35 => ⟨S_, .f32⟩
  | 36 => ⟨S1000000, .f32⟩
  | 37 => ⟨S1000000, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S_, .f32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S1000000, .f32⟩
  | 57 => ⟨S_, .f32⟩
  | 58 => ⟨S1000000, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S1000000, .f32⟩
  | 72 => ⟨S_, .f32⟩
  | 73 => ⟨S1000000, .f32⟩
  | 74 => ⟨S1000000, .f32⟩
  | 75 => ⟨S_, .f32⟩
  | 76 => ⟨S1000000, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .f32⟩
  | 99 => ⟨S_, .f32⟩
  | 100 => ⟨S1000000, .f32⟩
  | 101 => ⟨S1000000, .f32⟩
  | 102 => ⟨S1000000, .f32⟩
  | 103 => ⟨S_, .f32⟩
  | 104 => ⟨S1000000, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S1000000, .f32⟩
  | 111 => ⟨S_, .f32⟩
  | 112 => ⟨S1000000, .f32⟩
  | 113 => ⟨S1000000, .f32⟩
  | 114 => ⟨S1000000, .f32⟩
  | 115 => ⟨S_, .f32⟩
  | 116 => ⟨S1000000, .f32⟩
  | 117 => ⟨S1000000, .f32⟩
  | 118 => ⟨S_, .f32⟩
  | 119 => ⟨S1000000, .f32⟩
  | 120 => ⟨S1000000, .f32⟩
  | 121 => ⟨S1000000, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S1000000, .f32⟩
  | _ => ⟨S1000000x128, .f32⟩

abbrev hbmTy0_1 (i : Nat) : BufTy := match i % 128 with
  | 0 => ⟨S_, .f32⟩
  | 1 => ⟨S_, .f32⟩
  | 2 => ⟨S_, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S1000000, .f32⟩
  | 12 => ⟨S1000000, .f32⟩
  | 13 => ⟨S1000000, .f32⟩
  | 14 => ⟨S_, .f32⟩
  | 15 => ⟨S1000000, .f32⟩
  | 16 => ⟨S1000000, .f32⟩
  | 17 => ⟨S1000000, .f32⟩
  | 18 => ⟨S_, .f32⟩
  | 19 => ⟨S_, .f32⟩
  | 20 => ⟨S_, .f32⟩
  | 21 => ⟨S1000000, .f32⟩
  | 22 => ⟨S1000000, .f32⟩
  | 23 => ⟨S_, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S1000000, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S1000000, .f32⟩
  | 36 => ⟨S_, .f32⟩
  | 37 => ⟨S_, .f32⟩
  | 38 => ⟨S_, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S_, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000, .f32⟩
  | 81 => ⟨S_, .f32⟩
  | 82 => ⟨S1000000, .f32⟩
  | 83 => ⟨S1000000, .i1⟩
  | 84 => ⟨S1000000, .f32⟩
  | 85 => ⟨S_, .f32⟩
  | 86 => ⟨S1000000, .f32⟩
  | 87 => ⟨S1000000, .i1⟩
  | 88 => ⟨S_, .f32⟩
  | 89 => ⟨S_, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S_, .f32⟩
  | 100 => ⟨S1000000, .f32⟩
  | 101 => ⟨S1000000, .f32⟩
  | 102 => ⟨S_, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S1000000x1, .f32⟩
  | 110 => ⟨S1000000x1, .f32⟩
  | 111 => ⟨S1000000x1, .f32⟩
  | 112 => ⟨S1000000x1, .f32⟩
  | 113 => ⟨S1000000x1, .f32⟩
  | 114 => ⟨S1000000x13, .f32⟩
  | _ => ⟨S1000000x128, .f32⟩

abbrev hbmTy (i : Nat) : BufTy := match i / 128 with
  | 0 => hbmTy0_0 i
  | 1 => hbmTy0_1 i
  | _ => ⟨S1000000x128, .f32⟩

abbrev bufTy : (tb : Table) → Fin (tcTables nBuf tb) → BufTy
  | .hbm, ⟨i, _⟩ => hbmTy i
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_v20 : Ref sig .tc := ⟨.hbm, 39, rfl⟩
abbrev main_v21 : Ref sig .tc := ⟨.hbm, 40, rfl⟩
abbrev main_cst_8 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_10 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_11 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_13 : Ref sig .tc := ⟨.hbm, 61, rfl⟩
abbrev main_v37 : Ref sig .tc := ⟨.hbm, 62, rfl⟩
abbrev main_v38 : Ref sig .tc := ⟨.hbm, 63, rfl⟩
abbrev main_cst_14 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_15 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_16 : Ref sig .tc := ⟨.hbm, 72, rfl⟩
abbrev main_v45 : Ref sig .tc := ⟨.hbm, 73, rfl⟩
abbrev main_v46 : Ref sig .tc := ⟨.hbm, 74, rfl⟩
abbrev main_cst_17 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_18 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_19 : Ref sig .tc := ⟨.hbm, 83, rfl⟩
abbrev main_v53 : Ref sig .tc := ⟨.hbm, 84, rfl⟩
abbrev main_v54 : Ref sig .tc := ⟨.hbm, 85, rfl⟩
abbrev main_cst_20 : Ref sig .tc := ⟨.hbm, 86, rfl⟩
abbrev main_v55 : Ref sig .tc := ⟨.hbm, 87, rfl⟩
abbrev main_v56 : Ref sig .tc := ⟨.hbm, 88, rfl⟩
abbrev main_cst_21 : Ref sig .tc := ⟨.hbm, 89, rfl⟩
abbrev main_v57 : Ref sig .tc := ⟨.hbm, 90, rfl⟩
abbrev main_v58 : Ref sig .tc := ⟨.hbm, 91, rfl⟩
abbrev main_cst_22 : Ref sig .tc := ⟨.hbm, 92, rfl⟩
abbrev main_v59 : Ref sig .tc := ⟨.hbm, 93, rfl⟩
abbrev main_v60 : Ref sig .tc := ⟨.hbm, 94, rfl⟩
abbrev main_cst_23 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_24 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_25 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_26 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_27 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_28 : Ref sig .tc := ⟨.hbm, 115, rfl⟩
abbrev main_v76 : Ref sig .tc := ⟨.hbm, 116, rfl⟩
abbrev main_v77 : Ref sig .tc := ⟨.hbm, 117, rfl⟩
abbrev main_cst_29 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_cst_30 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_31 : Ref sig .tc := ⟨.hbm, 128, rfl⟩
abbrev main_cst_32 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_v86 : Ref sig .tc := ⟨.hbm, 135, rfl⟩
abbrev main_cst_33 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_34 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_cst_35 : Ref sig .tc := ⟨.hbm, 146, rfl⟩
abbrev main_cst_36 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_call1_v3 : Ref sig .tc := ⟨.hbm, 151, rfl⟩
abbrev main_call1_v4 : Ref sig .tc := ⟨.hbm, 152, rfl⟩
abbrev main_v95 : Ref sig .tc := ⟨.hbm, 153, rfl⟩
abbrev main_cst_37 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_38 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_39 : Ref sig .tc := ⟨.hbm, 164, rfl⟩
abbrev main_cst_40 : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_cst_41 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_cst_42 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_43 : Ref sig .tc := ⟨.hbm, 184, rfl⟩
abbrev main_v115 : Ref sig .tc := ⟨.hbm, 185, rfl⟩
abbrev main_v116 : Ref sig .tc := ⟨.hbm, 186, rfl⟩
abbrev main_cst_44 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_cst_45 : Ref sig .tc := ⟨.hbm, 191, rfl⟩
abbrev main_v120 : Ref sig .tc := ⟨.hbm, 192, rfl⟩
abbrev main_v121 : Ref sig .tc := ⟨.hbm, 193, rfl⟩
abbrev main_cst_46 : Ref sig .tc := ⟨.hbm, 194, rfl⟩
abbrev main_v122 : Ref sig .tc := ⟨.hbm, 195, rfl⟩
abbrev main_v123 : Ref sig .tc := ⟨.hbm, 196, rfl⟩
abbrev main_cst_47 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_cst_48 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_cst_49 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_cst_50 : Ref sig .tc := ⟨.hbm, 213, rfl⟩
abbrev main_v137 : Ref sig .tc := ⟨.hbm, 214, rfl⟩
abbrev main_v138 : Ref sig .tc := ⟨.hbm, 215, rfl⟩
abbrev main_cst_51 : Ref sig .tc := ⟨.hbm, 216, rfl⟩
abbrev main_call3_v0 : Ref sig .tc := ⟨.hbm, 217, rfl⟩
abbrev main_call3_v1 : Ref sig .tc := ⟨.hbm, 218, rfl⟩
abbrev main_v139 : Ref sig .tc := ⟨.hbm, 219, rfl⟩
abbrev main_cst_52 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_cst_53 : Ref sig .tc := ⟨.hbm, 224, rfl⟩
abbrev main_v143 : Ref sig .tc := ⟨.hbm, 225, rfl⟩
abbrev main_v144 : Ref sig .tc := ⟨.hbm, 226, rfl⟩
abbrev main_cst_54 : Ref sig .tc := ⟨.hbm, 227, rfl⟩
abbrev main_v145 : Ref sig .tc := ⟨.hbm, 228, rfl⟩
abbrev main_v146 : Ref sig .tc := ⟨.hbm, 229, rfl⟩
abbrev main_cst_55 : Ref sig .tc := ⟨.hbm, 230, rfl⟩
abbrev main_v147 : Ref sig .tc := ⟨.hbm, 231, rfl⟩
abbrev main_v148 : Ref sig .tc := ⟨.hbm, 232, rfl⟩
abbrev main_cst_56 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_v152 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩

abbrev nD : Nat := 1
abbrev τ : Topo := Topo.v7x

variable {F : FTy → Type} [FloatOps F]

class Facts₀ : Prop where
  shapeCasts_S1000000x128_S1000000x8x16 : S1000000x128.ShapeCasts S1000000x8x16
  reducesTo_S1000000x8x16_S1000000x8_d2 : S1000000x8x16.ReducesTo [2] S1000000x8
  h_S_ : 0 < S_.numel
  bcast_S_S1000000x8 : S_.BroadcastsInDim S1000000x8 (![] : Fin 0 → Fin S1000000x8.rank)
  reducesTo_S1000000x8_S1000000_d1 : S1000000x8.ReducesTo [1] S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x8_S1000000x1_S1000000x1_S1000000x13_d1 : Shape.Concatenates [S1000000x1, S1000000x1, S1000000x1, S1000000x8, S1000000x1, S1000000x1] S1000000x13 1

variable [Facts₀]

class Facts : Prop extends Facts₀ where

variable [Facts]
-- ==== Proof.FrameK.lean ====
/-
  The frame of the program: it runs to the end, faults nowhere and leaves its ten argument arrays as they were.

  @main is nine host operations — eight per-neuron state vectors stood up as columns and joined side by side into one
  [1000000, 8] array — followed by one pipelined region over 100 grid points. At point t the region stages rows
  10000·t … 10000·t + 9999 of the synaptic inputs, of the dendritic potentials and of the joined state array, runs the
  body on the three blocks, and writes the [10000, 13] block the body stored back to the same rows of the result.
  The body loads its three input blocks whole, computes, and stores one whole output block; so what the output
  staging buffer holds after the body is ONE function (`blockOut`) of the three input blocks, and the proof data of the
  pipeline is: every input window holds its block of the array as the region found it, the output window holds
  `blockOut` of those blocks. Everything is stated for any interpretation of the float operations.
-/
import proofs.«115508_j35699768165144_2_alg».proof.Proof.Gen.Kernel.Launch
import proofs.«115508_j35699768165144_2_alg».proof.Proof.Gen.Kernel.Skeleton
import proofs.«115508_j35699768165144_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the nine host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 1: the region finds it as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 2: the region finds it as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 3: the region finds it as it was launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 4: the region finds it as it was launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 5: the region finds it as it was launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 6: the region finds it as it was launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 7: the region finds it as it was launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 8: the region finds it as it was launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 9: the region finds it as it was launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block of the array at every point, whenever the proof data says the
    array is the region-entry one and the body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rSyn : Rect S10000x128 := Rect.unit (s := S10000x128) ![0, 0] S10000x128.size inb_S10000x128_S10000x128_0_0
abbrev rEight : Rect S10000x8 := Rect.unit (s := S10000x8) ![0, 0] S10000x8.size inb_S10000x8_S10000x8_0_0
abbrev rOut : Rect S10000x13 := Rect.unit (s := S10000x13) ![0, 0] S10000x13.size inb_S10000x13_S10000x13_0_0

/-- The value the body stores, from the three loaded blocks (synaptic inputs, dendritic potentials, joined state):
    the printed parts' results handed on in the printed order. -/
def stored (v0 : Vec F S10000x128 .f32) (v1 : Vec F S10000x8 .f32) (v2 : Vec F S10000x8 .f32) : FVec F S10000x13 .f32 :=
  let v4 := k0_pay3 v2
  let v5 := k0_pay4 v2
  let v6 := k0_pay5 v2
  let v7 := k0_pay6 v2
  let v8 := k0_pay7 v2
  let v9 := k0_pay8 v2
  let v10 := k0_pay9 v2
  let v11 := k0_pay10 v2
  let v36 := k0_pay11 v0
  let v41 := k0_pay12 v1
  let one : F .f32 := Scalar.ofBits .f32 0x3F800000#32
  let v52 := k0_pay13 v1 v36 v41 one
  let v54 := k0_pay14 v1 v36 v41 one
  let v68 := k0_pay15 v4
  let v77 := k0_pay16 v4
  let v84 := k0_pay17 v4
  let v86 := k0_pay18 v84
  let v97 := k0_pay19 v4
  let v111 := k0_pay20 v4
  let v120 := k0_pay21 v4
  let v125 := k0_pay22 v5 v68 v77
  let v126 : FVec F S10000x1 .f32 := k0_pay23 (F := F)
  let v164 := k0_pay24 v4 v5 v6 v86 v97 v125 v126
  let v171 := k0_pay25 v4 v7 v111 v120
  let rest : F .f32 := Scalar.ofBits .f32 0xC28C0000#32
  k0_pay1 v4 v8 v9 v10 v11 v52 v54 v164 v171 rest

/-- The output staging buffer after the body: its one store, of `stored` of the loaded blocks, over the whole buffer. -/
def blockOut (x0 : Vec F S10000x128 .f32) (x1 : Vec F S10000x8 .f32) (x2 : Vec F S10000x8 .f32) : Vec F S10000x13 .f32 :=
  View.canon [⟨rOut, stored (View.ld x0 rSyn) (View.ld x1 rEight) (View.ld x2 rEight)⟩]

/-- The one store covers the buffer. -/
theorem cover_out (p0 : Vec F S10000x13 .f32) (y : S10000x13.Idx) :
    ∃ pc ∈ ([⟨rOut, p0⟩] : List (View.Piece (Elt F) S10000x13 .f32)), y ∈ pc.1.set :=
  View.cover_of_tiled [⟨rOut, p0⟩] S10000x13.size (by rfl) y

/-! ## The body's triple -/

set_option maxHeartbeats 1000000 in
/-- The body on whole staging buffers — the inputs' at known contents, the output's at anything — runs to the end, leaves the
    inputs' as they were and the output's at `blockOut` of the inputs'. -/
theorem sound_kernel (c : Dev nD) (E : Set ℕ) (i : grid0.Coords)
    (arg1 : Memref sig .tc .vmem S10000x128 .f32) (harg1 : arg1.IsWhole) (arg2 : Memref sig .tc .vmem S10000x8 .f32) (harg2 : arg2.IsWhole)
    (arg3 : Memref sig .tc .vmem S10000x8 .f32) (harg3 : arg3.IsWhole) (arg4 : Memref sig .tc .vmem S10000x13 .f32) (harg4 : arg4.IsWhole)
    (x0 : Vec F S10000x128 .f32) (x1 : Vec F S10000x8 .f32) (x2 : Vec F S10000x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__hh_kernel i arg1 harg1 arg2 harg2 arg3 harg3 arg4 harg4) K := by
  simp only [cc0__hh_kernel_eq_skeleton]; unfold cc0__hh_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The arrays as the region finds them; after the body at point `t` each input buffer at its block and the output buffer at
    `blockOut` of the three input blocks; nothing of the kernel's own in the invariant, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = blockOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array is what the pipeline's
    proof data computes and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The two staged arguments are never written back; the other eight are no window's array. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).1 1).trans (((dats m 0 c).arrAt_in 1 rfl _).trans ((A_eq m c 1).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c)⟩

/-- The frame: the program runs and its ten argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept m r h c) (run_main m ρ)

end Cert.Kernel.Fr

end
-- ==== Proof.FrameKI.lean ====
/-
  The frame of the program: it runs to the end, faults nowhere and leaves its ten argument arrays as they were.

  @main is nine host operations — eight per-neuron state vectors stood up as columns and joined side by side into one
  [1000000, 8] array — followed by one pipelined region over 100 grid points. At point t the region stages rows
  10000·t … 10000·t + 9999 of the synaptic inputs, of the dendritic potentials and of the joined state array, runs the
  body on the three blocks, and writes the [10000, 13] block the body stored back to the same rows of the result.
  The body loads its three input blocks whole, computes, and stores one whole output block; so what the output
  staging buffer holds after the body is ONE function (`blockOut`) of the three input blocks, and the proof data of the
  pipeline is: every input window holds its block of the array as the region found it, the output window holds
  `blockOut` of those blocks. Everything is stated for any interpretation of the float operations.
-/
import proofs.«115508_j35699768165144_2_alg».proof.Proof.Gen.KernelIdeal.Launch
import proofs.«115508_j35699768165144_2_alg».proof.Proof.Gen.KernelIdeal.Skeleton
import proofs.«115508_j35699768165144_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch contents after the nine host operations. -/
abbrev V (c : Dev nD) (b : Ref sig .tc) : Buf (Elt F) ((c : Thread nD τ).loc b) :=
  StableHlo.after (List.flatten [hostOps0]) (fun b => m (c, b)) b

/-- None of the host operations allocates. -/
theorem hostOps0_fresh : (hostOps0 : List (HloOp τ sig (Elt F))).Forall fun op => op.fresh = ∅ := by
  simp only [List.Forall]; repeat' constructor

/-- @main is the host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation before the region writes argument 0: the region finds it as it was launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 1: the region finds it as it was launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 2: the region finds it as it was launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 3: the region finds it as it was launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 4: the region finds it as it was launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 5: the region finds it as it was launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 6: the region finds it as it was launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 7: the region finds it as it was launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 8: the region finds it as it was launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))
/-- No host operation before the region writes argument 9: the region finds it as it was launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.unary_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block of the array at every point, whenever the proof data says the
    array is the region-entry one and the body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev rSyn : Rect S10000x128 := Rect.unit (s := S10000x128) ![0, 0] S10000x128.size inb_S10000x128_S10000x128_0_0
abbrev rEight : Rect S10000x8 := Rect.unit (s := S10000x8) ![0, 0] S10000x8.size inb_S10000x8_S10000x8_0_0
abbrev rOut : Rect S10000x13 := Rect.unit (s := S10000x13) ![0, 0] S10000x13.size inb_S10000x13_S10000x13_0_0

/-- The value the body stores, from the three loaded blocks (synaptic inputs, dendritic potentials, joined state):
    the printed parts' results handed on in the printed order. -/
def stored (v0 : Vec F S10000x128 .f32) (v1 : Vec F S10000x8 .f32) (v2 : Vec F S10000x8 .f32) : FVec F S10000x13 .f32 :=
  let v4 := k0_pay3 v2
  let v5 := k0_pay4 v2
  let v6 := k0_pay5 v2
  let v7 := k0_pay6 v2
  let v8 := k0_pay7 v2
  let v9 := k0_pay8 v2
  let v10 := k0_pay9 v2
  let v11 := k0_pay10 v2
  let v36 := k0_pay11 v0
  let v41 := k0_pay12 v1
  let one : F .f32 := Scalar.ofBits .f32 0x3F800000#32
  let v52 := k0_pay13 v1 v36 v41 one
  let v54 := k0_pay14 v1 v36 v41 one
  let v68 := k0_pay15 v4
  let v77 := k0_pay16 v4
  let v84 := k0_pay17 v4
  let v86 := k0_pay18 v84
  let v97 := k0_pay19 v4
  let v111 := k0_pay20 v4
  let v120 := k0_pay21 v4
  let v125 := k0_pay22 v5 v68 v77
  let v126 : FVec F S10000x1 .f32 := k0_pay23 (F := F)
  let v164 := k0_pay24 v4 v5 v6 v86 v97 v125 v126
  let v171 := k0_pay25 v4 v7 v111 v120
  let rest : F .f32 := Scalar.ofBits .f32 0xC28C0000#32
  k0_pay1 v4 v8 v9 v10 v11 v52 v54 v164 v171 rest

/-- The output staging buffer after the body: its one store, of `stored` of the loaded blocks, over the whole buffer. -/
def blockOut (x0 : Vec F S10000x128 .f32) (x1 : Vec F S10000x8 .f32) (x2 : Vec F S10000x8 .f32) : Vec F S10000x13 .f32 :=
  View.canon [⟨rOut, stored (View.ld x0 rSyn) (View.ld x1 rEight) (View.ld x2 rEight)⟩]

/-- The one store covers the buffer. -/
theorem cover_out (p0 : Vec F S10000x13 .f32) (y : S10000x13.Idx) :
    ∃ pc ∈ ([⟨rOut, p0⟩] : List (View.Piece (Elt F) S10000x13 .f32)), y ∈ pc.1.set :=
  View.cover_of_tiled [⟨rOut, p0⟩] S10000x13.size (by rfl) y

/-! ## The body's triple -/

set_option maxHeartbeats 1000000 in
/-- The body on whole staging buffers — the inputs' at known contents, the output's at anything — runs to the end, leaves the
    inputs' as they were and the output's at `blockOut` of the inputs'. -/
theorem sound_kernel (c : Dev nD) (E : Set ℕ) (i : grid0.Coords)
    (arg1 : Memref sig .tc .vmem S10000x128 .f32) (harg1 : arg1.IsWhole) (arg2 : Memref sig .tc .vmem S10000x8 .f32) (harg2 : arg2.IsWhole)
    (arg3 : Memref sig .tc .vmem S10000x8 .f32) (harg3 : arg3.IsWhole) (arg4 : Memref sig .tc .vmem S10000x13 .f32) (harg4 : arg4.IsWhole)
    (x0 : Vec F S10000x128 .f32) (x1 : Vec F S10000x8 .f32) (x2 : Vec F S10000x8 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (blockOut x0 x1 x2)) -∗ K ⟨⟩))
      ⊢ wp frame (wpE (defs₀ (F := F)) Variants.none c none) E (cc0__hh_kernel i arg1 harg1 arg2 harg2 arg3 harg3 arg4 harg4) K := by
  simp only [cc0__hh_kernel_eq_skeleton]; unfold cc0__hh_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- The arrays as the region finds them; after the body at point `t` each input buffer at its block and the output buffer at
    `blockOut` of the three input blocks; nothing of the kernel's own in the invariant, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = blockOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the body's triple applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state each window's array is what the pipeline's
    proof data computes and every other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The two staged arguments are never written back; the other eight are no window's array. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).1 0).trans (((dats m 0 c).arrAt_in 0 rfl _).trans ((A_eq m c 0).trans (V_main_arg0 m c))),
   ((h c).2 main_arg1 (Pipeline.mem_restRefs_of main_arg1 (by decide) (by decide))).trans (V_main_arg1 m c),
   ((h c).1 1).trans (((dats m 0 c).arrAt_in 1 rfl _).trans ((A_eq m c 1).trans (V_main_arg2 m c))),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c)⟩

/-- The frame: the program runs and its ten argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => kept m r h c) (run_main m ρ)

end Cert.KernelIdeal.Fr

end
-- ==== Proof.Spec.lean ====
/-
  One step of the neuron model, for ONE neuron, over the extended reals.

  A neuron's row of the result depends only on that neuron's row of the inputs: its 128 synaptic inputs, its 8 dendritic
  potentials and its 8 state numbers (membrane potential v, gating variables m, h, n, calcium, adaptation, and the two
  plasticity traces). The 128 synaptic inputs are summed in 8 groups of 16 neighbours, each group drives one dendrite through
  a saturating nonlinearity, the 8 new dendritic potentials are summed into the dendritic current; the gating variables move by
  one explicit Euler step of their rate equations and are clipped to [0, 1]; the ionic currents and the dendritic current move
  the membrane potential; crossing the threshold is a spike, which resets the potential, bumps calcium and the post trace.
  Float words are kept as words: `w b` is the number the 32-bit pattern `b` denotes, never evaluated.
-/
import Idealize.ShloMosaic.PureOps.Ideal
import Idealize.ShloMosaic.PureOps.Ideal.Laws
import Idealize.ShloMosaic.Lib.ValueIdx

noncomputable section

namespace Cert.Neuron

open Idealize.ShloMosaic
open scoped BigOperators

/-- The extended real a 32-bit float word denotes. -/
abbrev w (b : BitVec 32) : EReal := Ideal.ofBits .f32 b

/-- Minus `x`, spelt as zero minus `x`. -/
abbrev neg0 (x : EReal) : EReal := w 0x00000000#32 - x

theorem neg0_eq (x : EReal) : neg0 x = -x := by
  show Ideal.ofBits .f32 0x00000000#32 - x = -x
  rw [Ideal.ofBits_zero_f32, sub_eq_add_neg, zero_add]

/-- The saturating synaptic gain at dendritic potential `dp`: 1 / (1 + 0.28·exp(−0.062·dp)). -/
def nmda (dp : EReal) : EReal :=
  Ideal.div (w 0x3F800000#32) (w 0x3F800000#32 + w 0x3E8F5C29#32 * Ideal.exp (w 0xBD7DF3B6#32 * dp))

/-- A dendrite's new potential from its summed input `s` and its potential `dp`: dp + (−dp + s·gain)·0.01. -/
def dendNew (s dp : EReal) : EReal := dp + (neg0 dp + s * nmda dp) * w 0x3C23D70A#32

/-- The input of dendrite `j`: the sum of synapses 16·j … 16·j + 15. -/
def dendIn (syn : Fin 128 → EReal) (j : Fin 8) : EReal :=
  ∑ k : Fin 16, syn ⟨16 * j.val + k.val, by have := j.isLt; have := k.isLt; omega⟩

/-- exp(−(v + a) / b). -/
def ex (a b v : EReal) : EReal := Ideal.exp (Ideal.div (neg0 (v + a)) b)

def alphaM (v : EReal) : EReal :=
  Ideal.div (w 0x3DCCCCCD#32 * (v + w 0x42200000#32)) (w 0x3F800000#32 - ex (w 0x42200000#32) (w 0x41200000#32) v)
def betaM (v : EReal) : EReal := w 0x40800000#32 * ex (w 0x42820000#32) (w 0x41900000#32) v
def alphaH (v : EReal) : EReal := w 0x3D8F5C29#32 * ex (w 0x42820000#32) (w 0x41A00000#32) v
def betaH (v : EReal) : EReal := Ideal.div (w 0x3F800000#32) (w 0x3F800000#32 + ex (w 0x420C0000#32) (w 0x41200000#32) v)
def alphaN (v : EReal) : EReal :=
  Ideal.div (w 0x3C23D70A#32 * (v + w 0x425C0000#32)) (w 0x3F800000#32 - ex (w 0x425C0000#32) (w 0x41200000#32) v)
def betaN (v : EReal) : EReal := w 0x3E000000#32 * ex (w 0x42820000#32) (w 0x42A00000#32) v

/-- One Euler step of a gating variable `x` with opening rate `a` and closing rate `b`, clipped to [0, 1]. -/
def gate (a b x : EReal) : EReal :=
  min (w 0x3F800000#32) (max (w 0x00000000#32) (x + (a * (w 0x3F800000#32 - x) - b * x) * w 0x3DCCCCCD#32))

/-- The sodium current: 180·m³·h·(v − 50). -/
def iNa (mN hN v : EReal) : EReal := w 0x43340000#32 * (mN * (mN * mN)) * hN * (v - w 0x42480000#32)
/-- The potassium current: 36·n⁴·(v + 77). -/
def iK (nN v : EReal) : EReal := w 0x42100000#32 * (nN * nN * (nN * nN)) * (v - w 0xC29A0000#32)
/-- The leak current: 10·(v + 70). -/
def iLeak (v : EReal) : EReal := w 0x41200000#32 * (v - w 0xC28C0000#32)
/-- The adaptation current: −(adaptation · decay). -/
def iAdapt (ad : EReal) : EReal := neg0 (ad * w 0x3F7FBE7F#32)

/-- The membrane potential after the step, before the reset. -/
def vNew (v idend ina ik il ia : EReal) : EReal := v + (idend + ina + ik + il + ia) * w 0x3A83126F#32

/-- The threshold crossing as a bit. -/
def fired (vN : EReal) : BitVec 1 := Ideal.cmp .ogt vN (w 0xC25C0000#32)
/-- The bit as a number, 0 or 1. -/
def bitNum (b : BitVec 1) : EReal := ((b.toNat : ℝ) : EReal)

theorem sitofp_extui (b : BitVec 1) : FloatOps.sitofp (F := Ideal) .f32 (b.setWidth 32) = bitNum b := by
  show (((b.setWidth 32).toInt : ℝ) : EReal) = ((b.toNat : ℝ) : EReal)
  have h : ∀ b : BitVec 1, (b.setWidth 32).toInt = (b.toNat : Int) := by decide
  rw [h b]; norm_cast

theorem uitofp_bit (b : BitVec 1) : FloatOps.uitofp (F := Ideal) .f32 b = bitNum b := rfl

def vOut (sp vN : EReal) : EReal := Scalar.select (Ideal.cmp .ogt sp (w 0x00000000#32)) (w 0xC28C0000#32) vN
def caNew (ca sp : EReal) : EReal := max ((ca + w 0x3DCCCCCD#32 * sp) * w 0x3F7EB923#32) (w 0x3D4CCCCD#32)
def preNew (pre : EReal) : EReal := pre * w 0x3F7EB923#32
def postNew (post sp : EReal) : EReal := post * w 0x3F7EB923#32 + sp

/-- The new potential of dendrite `j` of a neuron with synaptic inputs `syn` and dendritic potentials `dp`. -/
def dendOf (syn : Fin 128 → EReal) (dp : Fin 8 → EReal) (j : Fin 8) : EReal := dendNew (dendIn syn j) (dp j)

/-- The membrane potential after the step, before the reset, from the neuron's row. -/
def potential (syn : Fin 128 → EReal) (dp : Fin 8 → EReal) (v m h n ad : EReal) : EReal :=
  vNew v (∑ j : Fin 8, dendOf syn dp j)
    (iNa (gate (alphaM v) (betaM v) m) (gate (alphaH v) (betaH v) h) v)
    (iK (gate (alphaN v) (betaN v) n) v) (iLeak v) (iAdapt ad)

/-- Whether the neuron spiked, as 0 or 1. -/
def spikeOf (syn : Fin 128 → EReal) (dp : Fin 8 → EReal) (v m h n ad : EReal) : EReal :=
  bitNum (fired (potential syn dp v m h n ad))

/-- THE ROW of the result: spike | potential after reset | calcium | the 8 dendritic potentials | pre trace | post trace,
    from the neuron's synaptic inputs, dendritic potentials and state (v, m, h, n, calcium, adaptation, pre, post). -/
def rowOut (syn : Fin 128 → EReal) (dp : Fin 8 → EReal) (st : Fin 8 → EReal) (q : Fin 13) : EReal :=
  if q.val = 0 then spikeOf syn dp (st 0) (st 1) (st 2) (st 3) (st 5)
  else if q.val = 1 then vOut (spikeOf syn dp (st 0) (st 1) (st 2) (st 3) (st 5)) (potential syn dp (st 0) (st 1) (st 2) (st 3) (st 5))
  else if q.val = 2 then caNew (st 4) (spikeOf syn dp (st 0) (st 1) (st 2) (st 3) (st 5))
  else if h : q.val < 11 then dendOf syn dp ⟨q.val - 3, by omega⟩
  else if q.val = 11 then preNew (st 6)
  else postNew (st 7) (spikeOf syn dp (st 0) (st 1) (st 2) (st 3) (st 5))

end Cert.Neuron

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibRowLayout.lean ====
import Idealize.ShloMosaic.Lib.Pipeline.Value
import Idealize.ShloMosaic.Lib.ValueLayout
import Idealize.ShloMosaic.PureOps.Ideal.Laws
import proofs.«115508_j35699768165144_2_alg».proof.Proof.LibTileLayout

/-!
# Two-axis arrays handled row by row: slices of columns, pieces joined side by side, row sums as a column

A program that treats every row of an `[a, b]` array by itself cuts columns out of it, sums along a row, stands the sums up
as a column `[a, 1]`, and joins columns and blocks side by side again. Each of these steps only moves numbers (or adds up
one row), and here each is read at an index `(p, q)` written by its coordinates, for any extents:

* `slice_cols_apply`: the slice of columns `o … o + b' − 1` has at `(p, k)` the entry `(p, o + k)`;
* `concat_axis1_apply`: pieces joined along axis 1 have at `(p, q)` the entry `(p, r)` of the piece whose columns start
  at `pre` and hold `q = pre + r`;
* `sumCol_apply`: the sums along axis 1 (from a zero word, at the exact instance) stood up as a column have at `(p, 0)`
  the sum of row `p`;
* `column_apply`: a vector `[a]` stood up as a column `[a, 1]` by `broadcast_in_dim` has at `(p, 0)` the entry `p`.
-/

namespace Cert.RowLayout

open Idealize.ShloMosaic Idealize.ShloMosaic.ValueIdx
open scoped BigOperators

variable {α : Type}

/-- A slice of whole columns: at `(p, k)` it has the operand's entry `(p, o + k)`. -/
theorem slice_cols_apply {a b b' : ℕ} (o : ℕ) (x : (⟨2, ![a, b]⟩ : Shape).Idx → α)
    (h : (⟨2, ![a, b]⟩ : Shape).Slices ![0, o] ⟨2, ![a, b']⟩) (p : Fin a) (k : Fin b') (hk : o + k.val < b) :
    extractStridedSlice ⟨2, ![a, b']⟩ ![0, o] x h (ix2 p k) = x (ix2 p ⟨o + k.val, hk⟩) :=
  extractStridedSlice_apply _ x h _ _ fun ax =>
    match ax with
    | ⟨0, _⟩ => (Nat.zero_add _).symm
    | ⟨1, _⟩ => rfl

/-- Pieces joined along axis 1: the entry `(p, q)` is the entry `(p, r)` of piece `k`, when the pieces before it are `pre`
    columns wide and `q = pre + r`. -/
theorem concat_axis1_apply {a n b₁ : ℕ} (xs : List ((s : Shape) × (s.Idx → α)))
    (h : Shape.Concatenates (xs.map (·.1)) ⟨2, ![a, n]⟩ 1) (k : ℕ) (hk : k < xs.length)
    (x₁ : (⟨2, ![a, b₁]⟩ : Shape).Idx → α) (hxk : xs[k] = ⟨⟨2, ![a, b₁]⟩, x₁⟩) (pre : ℕ)
    (hpre : (((xs.take k).map (·.1)).map fun s =>
      if h : s.rank = (⟨2, ![a, n]⟩ : Shape).rank then s.size ((1 : Fin (⟨2, ![a, n]⟩ : Shape).rank).cast h.symm) else 0).sum = pre)
    (p : Fin a) (q : Fin n) (r : Fin b₁) (hq : pre + r.val = q.val) :
    concatenate ⟨2, ![a, n]⟩ 1 xs h (ix2 p q) = x₁ (ix2 p r) :=
  concatenate_apply_piece 1 xs h (ix2 p q) k hk _ x₁ hxk rfl pre hpre (ix2 p r)
    (fun b hb => match b with
      | ⟨0, _⟩ => rfl
      | ⟨1, _⟩ => absurd rfl hb) hq

/-- The sums along axis 1, started from a zero word, stood up as a column: at `(p, u)` the sum of row `p`. -/
theorem sumCol_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ q : Fin b, src (ix2 p q) :=
  (Cert.TileLayout.shapeCast_a_a1_apply _ hc p u).trans (Cert.TileLayout.sum_axis1_apply src acc h hφ hacc p)

/-- A vector stood up as a column by `broadcast_in_dim` along axis 0: at `(p, u)` the vector's entry `p`. -/
theorem column_apply {a : ℕ} (ha : a ≠ 1) (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ _ fun ax =>
    match ax with
    | ⟨0, _⟩ => by
      show p.val = if a = 1 then 0 else p.val
      rw [if_neg ha]

end Cert.RowLayout
-- ==== Proof.KRow.lean ====
/-
  The kernel body acts on every row of its blocks by itself.

  The body's stored [10000, 13] block, read at row p and column q, is the specification's row function of row p of the
  three loaded blocks: the eight state numbers are the eight columns of the joined state block, the input of dendrite j is
  the sum of lanes 16·j … 16·j + 15 of the synaptic block's row, the dendritic current is the sum over the eight new
  dendritic potentials of the row, and everything else is the same arithmetic entry by entry. The stored block is six
  pieces side by side: three single columns, the eight dendritic columns, two single columns.
-/
import proofs.«115508_j35699768165144_2_alg».proof.Proof.FrameKI
import proofs.«115508_j35699768165144_2_alg».proof.Proof.Spec
import proofs.«115508_j35699768165144_2_alg».proof.Proof.LibRowLayout
import Idealize.ShloMosaic.Lib.ValueIdx

set_option maxRecDepth 16384

noncomputable section

namespace Cert.KernelIdeal.Row

open Cert.KernelIdeal Cert.KernelIdeal.Gen Cert.KernelIdeal.Fr Cert.Neuron Cert.RowLayout
open Idealize.ShloMosaic Idealize.ShloMosaic.ValueIdx
open scoped BigOperators

/-! ## The eight state columns -/

theorem pay3_apply (v2 : Vec Ideal S10000x8 .f32) (p : Fin 10000) :
    k0_pay3 v2 (ix2 p (0 : Fin 1)) = v2 (ix2 p (0 : Fin 8)) := by
  unfold k0_pay3 k0_pay2
  rw [shapeCast_self]
  exact slice_cols_apply 0 v2 _ p 0 (by decide)
theorem pay4_apply (v2 : Vec Ideal S10000x8 .f32) (p : Fin 10000) :
    k0_pay4 v2 (ix2 p (0 : Fin 1)) = v2 (ix2 p (1 : Fin 8)) := by
  unfold k0_pay4 k0_pay2
  rw [shapeCast_self]
  exact slice_cols_apply 1 v2 _ p 0 (by decide)
theorem pay5_apply (v2 : Vec Ideal S10000x8 .f32) (p : Fin 10000) :
    k0_pay5 v2 (ix2 p (0 : Fin 1)) = v2 (ix2 p (2 : Fin 8)) := by
  unfold k0_pay5 k0_pay2
  rw [shapeCast_self]
  exact slice_cols_apply 2 v2 _ p 0 (by decide)
theorem pay6_apply (v2 : Vec Ideal S10000x8 .f32) (p : Fin 10000) :
    k0_pay6 v2 (ix2 p (0 : Fin 1)) = v2 (ix2 p (3 : Fin 8)) := by
  unfold k0_pay6 k0_pay2
  rw [shapeCast_self]
  exact slice_cols_apply 3 v2 _ p 0 (by decide)
theorem pay7_apply (v2 : Vec Ideal S10000x8 .f32) (p : Fin 10000) :
    k0_pay7 v2 (ix2 p (0 : Fin 1)) = v2 (ix2 p (4 : Fin 8)) := by
  unfold k0_pay7 k0_pay2
  rw [shapeCast_self]
  exact slice_cols_apply 4 v2 _ p 0 (by decide)
theorem pay8_apply (v2 : Vec Ideal S10000x8 .f32) (p : Fin 10000) :
    k0_pay8 v2 (ix2 p (0 : Fin 1)) = v2 (ix2 p (5 : Fin 8)) := by
  unfold k0_pay8 k0_pay2
  rw [shapeCast_self]
  exact slice_cols_apply 5 v2 _ p 0 (by decide)
theorem pay9_apply (v2 : Vec Ideal S10000x8 .f32) (p : Fin 10000) :
    k0_pay9 v2 (ix2 p (0 : Fin 1)) = v2 (ix2 p (6 : Fin 8)) := by
  unfold k0_pay9 k0_pay2
  rw [shapeCast_self]
  exact slice_cols_apply 6 v2 _ p 0 (by decide)
theorem pay10_apply (v2 : Vec Ideal S10000x8 .f32) (p : Fin 10000) :
    k0_pay10 v2 (ix2 p (0 : Fin 1)) = v2 (ix2 p (7 : Fin 8)) := by
  unfold k0_pay10 k0_pay2
  rw [shapeCast_self]
  exact slice_cols_apply 7 v2 _ p 0 (by decide)

/-! ## The dendrites' inputs: eight lane sums side by side -/

/-- The sum of 16 neighbouring lanes of every row, stood up as a column. -/
theorem laneSum_apply (o : ℕ) (ho : o + 16 ≤ 128) (v0 : Vec Ideal S10000x128 .f32)
    (hs : S10000x128.Slices ![0, o] S10000x16) (hr : S10000x16.Reduces [1] S10000) (hφ : FKind.Formats .f32)
    (hacc : (0x00000000#32 : BitVec 32) = FKind.add.neutral .f32 hφ) (hc : S10000.ShapeCasts S10000x1) (p : Fin 10000) :
    shapeCast S10000x1 (multiReduction (F := Ideal) .add [1] S10000 (extractStridedSlice S10000x16 ![0, o] v0 hs) 0x00000000#32 hr hφ hacc) hc
        (ix2 p (0 : Fin 1))
      = ∑ k : Fin 16, v0 (ix2 p ⟨o + k.val, by have := k.isLt; omega⟩) :=
  (sumCol_apply _ _ hr hφ hacc hc p 0).trans
    (Finset.sum_congr rfl fun k _ => slice_cols_apply o v0 hs p k (by have := k.isLt; omega))

theorem pay11_apply (v0 : Vec Ideal S10000x128 .f32) (p : Fin 10000) (j : Fin 8) :
    k0_pay11 v0 (ix2 p j) = dendIn (fun k => v0 (ix2 p k)) j := by
  unfold k0_pay11
  try dsimp only
  match j with
  | ⟨0, _⟩ =>
    exact (concat_axis1_apply _ _ 0 (Nat.le_of_ble_eq_true (by rfl)) _ (by rfl) 0 (by rfl) p _ (0 : Fin 1) rfl).trans
      ((laneSum_apply 0 (by decide) v0 _ _ _ _ _ p).trans rfl)
  | ⟨1, _⟩ =>
    exact (concat_axis1_apply _ _ 1 (Nat.le_of_ble_eq_true (by rfl)) _ (by rfl) 1 (by rfl) p _ (0 : Fin 1) rfl).trans
      ((laneSum_apply 16 (by decide) v0 _ _ _ _ _ p).trans rfl)
  | ⟨2, _⟩ =>
    exact (concat_axis1_apply _ _ 2 (Nat.le_of_ble_eq_true (by rfl)) _ (by rfl) 2 (by rfl) p _ (0 : Fin 1) rfl).trans
      ((laneSum_apply 32 (by decide) v0 _ _ _ _ _ p).trans rfl)
  | ⟨3, _⟩ =>
    exact (concat_axis1_apply _ _ 3 (Nat.le_of_ble_eq_true (by rfl)) _ (by rfl) 3 (by rfl) p _ (0 : Fin 1) rfl).trans
      ((laneSum_apply 48 (by decide) v0 _ _ _ _ _ p).trans rfl)
  | ⟨4, _⟩ =>
    exact (concat_axis1_apply _ _ 4 (Nat.le_of_ble_eq_true (by rfl)) _ (by rfl) 4 (by rfl) p _ (0 : Fin 1) rfl).trans
      ((laneSum_apply 64 (by decide) v0 _ _ _ _ _ p).trans rfl)
  | ⟨5, _⟩ =>
    exact (concat_axis1_apply _ _ 5 (Nat.le_of_ble_eq_true (by rfl)) _ (by rfl) 5 (by rfl) p _ (0 : Fin 1) rfl).trans
      ((laneSum_apply 80 (by decide) v0 _ _ _ _ _ p).trans rfl)
  | ⟨6, _⟩ =>
    exact (concat_axis1_apply _ _ 6 (Nat.le_of_ble_eq_true (by rfl)) _ (by rfl) 6 (by rfl) p _ (0 : Fin 1) rfl).trans
      ((laneSum_apply 96 (by decide) v0 _ _ _ _ _ p).trans rfl)
  | ⟨7, _⟩ =>
    exact (concat_axis1_apply _ _ 7 (Nat.le_of_ble_eq_true (by rfl)) _ (by rfl) 7 (by rfl) p _ (0 : Fin 1) rfl).trans
      ((laneSum_apply 112 (by decide) v0 _ _ _ _ _ p).trans rfl)

/-! ## The elementwise payloads, entry by entry -/

theorem pay13_apply (v1 : Vec Ideal S10000x8 .f32) (v36 : FVec Ideal S10000x8 .f32) (i : S10000x8.Idx) :
    k0_pay13 v1 v36 (k0_pay12 v1) (Scalar.ofBits .f32 0x3F800000#32) i = dendNew (v36 i) (v1 i) := rfl

theorem pay14_apply (v1 : Vec Ideal S10000x8 .f32) (v36 v41 : FVec Ideal S10000x8 .f32) (c : Ideal .f32) (p : Fin 10000) :
    k0_pay14 v1 v36 v41 c (ix2 p (0 : Fin 1)) = ∑ j : Fin 8, k0_pay13 v1 v36 v41 c (ix2 p j) := by
  unfold k0_pay14
  exact sumCol_apply _ _ _ _ _ _ p 0

theorem pay15_apply (v4 : FVec Ideal S10000x1 .f32) (i : S10000x1.Idx) : k0_pay15 v4 i = alphaM (v4 i) := rfl
theorem pay16_apply (v4 : FVec Ideal S10000x1 .f32) (i : S10000x1.Idx) : k0_pay16 v4 i = betaM (v4 i) := rfl
theorem pay18_apply (v4 : FVec Ideal S10000x1 .f32) (i : S10000x1.Idx) : k0_pay18 (k0_pay17 v4) i = alphaH (v4 i) := rfl
theorem pay19_apply (v4 : FVec Ideal S10000x1 .f32) (i : S10000x1.Idx) : k0_pay19 v4 i = betaH (v4 i) := rfl
theorem pay20_apply (v4 : FVec Ideal S10000x1 .f32) (i : S10000x1.Idx) : k0_pay20 v4 i = alphaN (v4 i) := rfl
theorem pay21_apply (v4 : FVec Ideal S10000x1 .f32) (i : S10000x1.Idx) : k0_pay21 v4 i = betaN (v4 i) := rfl

/-- The sodium current from the columns: both gates stepped and clipped inside. -/
theorem pay24_apply (v4 v5 v6 v68 v77 v86 v97 : FVec Ideal S10000x1 .f32) (i : S10000x1.Idx) :
    k0_pay24 v4 v5 v6 v86 v97 (k0_pay22 v5 v68 v77) (k0_pay23 (F := Ideal)) i
      = iNa (gate (v68 i) (v77 i) (v5 i)) (gate (v86 i) (v97 i) (v6 i)) (v4 i) := rfl

/-- The potassium current from the columns. -/
theorem pay25_apply (v4 v7 v111 v120 : FVec Ideal S10000x1 .f32) (i : S10000x1.Idx) :
    k0_pay25 v4 v7 v111 v120 i = iK (gate (v111 i) (v120 i) (v7 i)) (v4 i) := rfl

/-! ## The stored block, column group by column group -/

section Stored
variable (v4 v8 v9 v10 v11 : FVec Ideal S10000x1 .f32) (v52 : FVec Ideal S10000x8 .f32) (v54 v164 v171 : FVec Ideal S10000x1 .f32)
  (rest : Ideal .f32) (p : Fin 10000) (q : Fin 13)

/-- The membrane potential of row `p` before the reset, from the columns' entries. -/
abbrev potAt : EReal :=
  v4 (ix2 p (0 : Fin 1)) + (v54 (ix2 p (0 : Fin 1)) + v164 (ix2 p (0 : Fin 1)) + v171 (ix2 p (0 : Fin 1))
      + w 0x41200000#32 * (v4 (ix2 p (0 : Fin 1)) - rest) + iAdapt (v9 (ix2 p (0 : Fin 1)))) * w 0x3A83126F#32

theorem pay1_spike (hq : q.val = 0) :
    k0_pay1 v4 v8 v9 v10 v11 v52 v54 v164 v171 rest (ix2 p q) = bitNum (fired (potAt v4 v9 v54 v164 v171 rest p)) := by
  unfold k0_pay1
  try dsimp only
  refine (concat_axis1_apply _ _ 0 (Nat.le_of_ble_eq_true (by rfl)) _ (by rfl) 0 (by rfl) p q (0 : Fin 1) (by omega)).trans ?_
  exact sitofp_extui (fired (potAt v4 v9 v54 v164 v171 rest p))

theorem pay1_reset (hq : q.val = 1) :
    k0_pay1 v4 v8 v9 v10 v11 v52 v54 v164 v171 rest (ix2 p q)
      = vOut (bitNum (fired (potAt v4 v9 v54 v164 v171 rest p))) (potAt v4 v9 v54 v164 v171 rest p) := by
  unfold k0_pay1
  try dsimp only
  refine (concat_axis1_apply _ _ 1 (Nat.le_of_ble_eq_true (by rfl)) _ (by rfl) 1 (by rfl) p q (0 : Fin 1) (by omega)).trans ?_
  exact congrArg (fun s => vOut s (potAt v4 v9 v54 v164 v171 rest p)) (sitofp_extui (fired (potAt v4 v9 v54 v164 v171 rest p)))

theorem pay1_calcium (hq : q.val = 2) :
    k0_pay1 v4 v8 v9 v10 v11 v52 v54 v164 v171 rest (ix2 p q)
      = caNew (v8 (ix2 p (0 : Fin 1))) (bitNum (fired (potAt v4 v9 v54 v164 v171 rest p))) := by
  unfold k0_pay1
  try dsimp only
  refine (concat_axis1_apply _ _ 2 (Nat.le_of_ble_eq_true (by rfl)) _ (by rfl) 2 (by rfl) p q (0 : Fin 1) (by omega)).trans ?_
  exact congrArg (fun s => caNew (v8 (ix2 p (0 : Fin 1))) s) (sitofp_extui (fired (potAt v4 v9 v54 v164 v171 rest p)))

theorem pay1_dend (h3 : 3 ≤ q.val) (h11 : q.val < 11) :
    k0_pay1 v4 v8 v9 v10 v11 v52 v54 v164 v171 rest (ix2 p q) = v52 (ix2 p ⟨q.val - 3, by omega⟩) := by
  unfold k0_pay1
  try dsimp only
  exact concat_axis1_apply _ _ 3 (Nat.le_of_ble_eq_true (by rfl)) _ (by rfl) 3 (by rfl) p q ⟨q.val - 3, by omega⟩ (by show 3 + (q.val - 3) = q.val; omega)

theorem pay1_pre (hq : q.val = 11) :
    k0_pay1 v4 v8 v9 v10 v11 v52 v54 v164 v171 rest (ix2 p q) = preNew (v10 (ix2 p (0 : Fin 1))) := by
  unfold k0_pay1
  try dsimp only
  refine (concat_axis1_apply _ _ 4 (Nat.le_of_ble_eq_true (by rfl)) _ (by rfl) 11 (by rfl) p q (0 : Fin 1) (by omega)).trans ?_
  rfl

theorem pay1_post (hq : q.val = 12) :
    k0_pay1 v4 v8 v9 v10 v11 v52 v54 v164 v171 rest (ix2 p q)
      = postNew (v11 (ix2 p (0 : Fin 1))) (bitNum (fired (potAt v4 v9 v54 v164 v171 rest p))) := by
  unfold k0_pay1
  try dsimp only
  refine (concat_axis1_apply _ _ 5 (Nat.le_of_ble_eq_true (by rfl)) _ (by rfl) 12 (by rfl) p q (0 : Fin 1) (by omega)).trans ?_
  exact congrArg (fun s => postNew (v11 (ix2 p (0 : Fin 1))) s) (sitofp_extui (fired (potAt v4 v9 v54 v164 v171 rest p)))

end Stored

/-! ## The whole stored block -/

section Whole
variable (x0 : Vec Ideal S10000x128 .f32) (x1 x2 : Vec Ideal S10000x8 .f32) (p : Fin 10000)

/-- The row's synaptic inputs, dendritic potentials and state numbers. -/
abbrev synRow : Fin 128 → EReal := fun k => x0 (ix2 p k)
abbrev dpRow : Fin 8 → EReal := fun j => x1 (ix2 p j)
abbrev stRow : Fin 8 → EReal := fun j => x2 (ix2 p j)

/-- The new potential of dendrite `j` of row `p`. -/
theorem dend_apply (j : Fin 8) :
    k0_pay13 x1 (k0_pay11 x0) (k0_pay12 x1) (Scalar.ofBits .f32 0x3F800000#32) (ix2 p j) = dendOf (synRow x0 p) (dpRow x1 p) j :=
  (pay13_apply x1 (k0_pay11 x0) (ix2 p j)).trans (congrArg (fun s => dendNew s (x1 (ix2 p j))) (pay11_apply x0 p j))

/-- The membrane potential of row `p` before the reset is the specification's. -/
theorem pot_apply :
    potAt (k0_pay3 x2) (k0_pay8 x2)
        (k0_pay14 x1 (k0_pay11 x0) (k0_pay12 x1) (Scalar.ofBits .f32 0x3F800000#32))
        (k0_pay24 (k0_pay3 x2) (k0_pay4 x2) (k0_pay5 x2) (k0_pay18 (k0_pay17 (k0_pay3 x2))) (k0_pay19 (k0_pay3 x2))
          (k0_pay22 (k0_pay4 x2) (k0_pay15 (k0_pay3 x2)) (k0_pay16 (k0_pay3 x2))) (k0_pay23 (F := Ideal)))
        (k0_pay25 (k0_pay3 x2) (k0_pay6 x2) (k0_pay20 (k0_pay3 x2)) (k0_pay21 (k0_pay3 x2)))
        (Scalar.ofBits .f32 0xC28C0000#32) p
      = potential (synRow x0 p) (dpRow x1 p) (x2 (ix2 p (0 : Fin 8))) (x2 (ix2 p (1 : Fin 8))) (x2 (ix2 p (2 : Fin 8)))
          (x2 (ix2 p (3 : Fin 8))) (x2 (ix2 p (5 : Fin 8))) := by
  unfold potAt
  rw [pay14_apply, pay24_apply, pay25_apply, pay18_apply, pay19_apply, pay15_apply, pay16_apply, pay20_apply, pay21_apply,
    pay3_apply, pay4_apply, pay5_apply, pay6_apply, pay8_apply]
  rw [Finset.sum_congr rfl fun j _ => dend_apply x0 x1 p j]
  rfl

/-- THE STORED BLOCK at row `p`, column `q`: the specification's row function of row `p` of the three loaded blocks. -/
theorem stored_apply (q : Fin 13) :
    stored x0 x1 x2 (ix2 p q) = rowOut (synRow x0 p) (dpRow x1 p) (stRow x2 p) q := by
  unfold stored rowOut
  try dsimp only
  by_cases h0 : q.val = 0
  · rw [if_pos h0, pay1_spike _ _ _ _ _ _ _ _ _ _ p q h0, pot_apply]; rfl
  rw [if_neg h0]
  by_cases h1 : q.val = 1
  · rw [if_pos h1, pay1_reset _ _ _ _ _ _ _ _ _ _ p q h1, pot_apply]; rfl
  rw [if_neg h1]
  by_cases h2 : q.val = 2
  · rw [if_pos h2, pay1_calcium _ _ _ _ _ _ _ _ _ _ p q h2, pot_apply, pay7_apply]; rfl
  rw [if_neg h2]
  by_cases h3 : q.val < 11
  · rw [dif_pos h3, pay1_dend _ _ _ _ _ _ _ _ _ _ p q (by omega) h3]
    exact dend_apply x0 x1 p _
  rw [dif_neg h3]
  by_cases h4 : q.val = 11
  · rw [if_pos h4, pay1_pre _ _ _ _ _ _ _ _ _ _ p q h4, pay9_apply]
  rw [if_neg h4, pay1_post _ _ _ _ _ _ _ _ _ _ p q (by have := q.isLt; omega), pot_apply, pay10_apply]
  rfl

end Whole

end Cert.KernelIdeal.Row

end
-- ==== Proof.SpecArray.lean ====
/-
  The result array of one step for the whole population: row n is the specification's row function of row n of the synaptic
  inputs and of the dendritic potentials, and of the eight state numbers taken from the eight per-neuron state vectors.
-/
import proofs.«115508_j35699768165144_2_alg».proof.Proof.Spec

noncomputable section

namespace Cert.Neuron

open Idealize.ShloMosaic Idealize.ShloMosaic.ValueIdx

/-- The eight state numbers of neuron `n`: potential, m, h, n, calcium, adaptation, pre trace, post trace. -/
def stateOf (a1 a3 a4 a5 a6 a7 a8 a9 : (⟨1, ![1000000]⟩ : Shape).Idx → EReal) (n : Fin 1000000) : Fin 8 → EReal :=
  fun j => (![a1, a3, a4, a5, a6, a7, a8, a9] j) (ix1 n)

/-- Entry (n, q) of the result. -/
def rowResult (a0 : (⟨2, ![1000000, 128]⟩ : Shape).Idx → EReal) (a1 : (⟨1, ![1000000]⟩ : Shape).Idx → EReal)
    (a2 : (⟨2, ![1000000, 8]⟩ : Shape).Idx → EReal) (a3 a4 a5 a6 a7 a8 a9 : (⟨1, ![1000000]⟩ : Shape).Idx → EReal)
    (n : Fin 1000000) (q : Fin 13) : EReal :=
  rowOut (fun k => a0 (ix2 n k)) (fun j => a2 (ix2 n j)) (stateOf a1 a3 a4 a5 a6 a7 a8 a9 n) q

/-- THE RESULT: the [1000000, 13] array of one step, as one function of the ten argument arrays. -/
def result (a0 : (⟨2, ![1000000, 128]⟩ : Shape).Idx → EReal) (a1 : (⟨1, ![1000000]⟩ : Shape).Idx → EReal)
    (a2 : (⟨2, ![1000000, 8]⟩ : Shape).Idx → EReal) (a3 a4 a5 a6 a7 a8 a9 : (⟨1, ![1000000]⟩ : Shape).Idx → EReal) :
    (⟨2, ![1000000, 13]⟩ : Shape).Idx → EReal :=
  fun i => rowResult a0 a1 a2 a3 a4 a5 a6 a7 a8 a9 ⟨(i 0).val, idx2_lt0 i⟩ ⟨(i 1).val, idx2_lt1 i⟩

theorem result_apply (a0 : (⟨2, ![1000000, 128]⟩ : Shape).Idx → EReal) (a1 : (⟨1, ![1000000]⟩ : Shape).Idx → EReal)
    (a2 : (⟨2, ![1000000, 8]⟩ : Shape).Idx → EReal) (a3 a4 a5 a6 a7 a8 a9 : (⟨1, ![1000000]⟩ : Shape).Idx → EReal)
    (n : Fin 1000000) (q : Fin 13) :
    result a0 a1 a2 a3 a4 a5 a6 a7 a8 a9 (ix2 n q) = rowResult a0 a1 a2 a3 a4 a5 a6 a7 a8 a9 n q := rfl

end Cert.Neuron

end
-- ==== Proof.KFinal.lean ====
/-
  From the kernel's blocks to its whole result array.

  Grid point t handles rows 10000·t … 10000·t + 9999: the three input windows and the output window all sit at block
  (t, 0) of their arrays. The state window's array is the join, column by column, of the eight per-neuron state vectors
  stood up as columns, so its entry (n, j) is entry n of the j-th state vector. Hence what point t writes back is block t
  of the specification's result array of the ten arguments, the 100 blocks cover the array, and the run ends with the
  result array equal to that one function.
-/
import proofs.«115508_j35699768165144_2_alg».proof.Proof.KRow
import proofs.«115508_j35699768165144_2_alg».proof.Proof.SpecArray
import Idealize.ShloMosaic.Lib.Pipeline.Value
import Idealize.ShloMosaic.Lib.StableHlo.Run
import Idealize.ShloMosaic.Lib.Tactic

set_option maxRecDepth 16384

noncomputable section

namespace Cert.KernelIdeal.Final

open Cert.KernelIdeal Cert.KernelIdeal.Gen Cert.KernelIdeal.Fr Cert.KernelIdeal.Row Cert.Neuron Cert.RowLayout
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 100 grid points: every window sits at the output's row block, in column block 0. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 99 ∧ win0_3.index t (1 : Fin 2) = 0 :=
  (by decide +kernel : ∀ t : Fin grid0.N, _)

/-- Every row block is some point's. -/
theorem idx_onto : ∀ q0 : Fin 100, ∃ t : Fin cfg0.N, win0_3.index t = ![q0.val, 0] :=
  (by decide +kernel : ∀ q0 : Fin 100, ∃ t : Fin grid0.N, win0_3.index t = ![q0.val, 0])

/-- The array row that row `p` of point `t`'s blocks is. -/
def rowIx (t : Fin cfg0.N) (p : Fin 10000) : Fin 1000000 :=
  ⟨win0_3.index t (0 : Fin 2) * 10000 + p.val, by have := (idx_facts t).2.2.2.2.2.2.1; have := p.isLt; omega⟩

/-! ## The arrays as the region finds them -/

/-- The joined state array: entry (n, j) is entry n of the j-th state vector. -/
theorem V_state (c : Dev nD) (n : Fin 1000000) (j : Fin 8) :
    (V m c main_v8 : S1000000x8.Idx → EReal) (ix2 n j)
      = stateOf (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) n j := by
  have e : (V m c main_v8 : S1000000x8.Idx → EReal)
      = concatenate S1000000x8 1 [⟨S1000000x1, broadcastInDim S1000000x1 ![0] bcast_S1000000_S1000000x1_0 (m ((c : Thread nD τ).loc main_arg1))⟩, ⟨S1000000x1, broadcastInDim S1000000x1 ![0] bcast_S1000000_S1000000x1_0 (m ((c : Thread nD τ).loc main_arg3))⟩, ⟨S1000000x1, broadcastInDim S1000000x1 ![0] bcast_S1000000_S1000000x1_0 (m ((c : Thread nD τ).loc main_arg4))⟩, ⟨S1000000x1, broadcastInDim S1000000x1 ![0] bcast_S1000000_S1000000x1_0 (m ((c : Thread nD τ).loc main_arg5))⟩, ⟨S1000000x1, broadcastInDim S1000000x1 ![0] bcast_S1000000_S1000000x1_0 (m ((c : Thread nD τ).loc main_arg6))⟩, ⟨S1000000x1, broadcastInDim S1000000x1 ![0] bcast_S1000000_S1000000x1_0 (m ((c : Thread nD τ).loc main_arg7))⟩, ⟨S1000000x1, broadcastInDim S1000000x1 ![0] bcast_S1000000_S1000000x1_0 (m ((c : Thread nD τ).loc main_arg8))⟩, ⟨S1000000x1, broadcastInDim S1000000x1 ![0] bcast_S1000000_S1000000x1_0 (m ((c : Thread nD τ).loc main_arg9))⟩]
          concatenates_S1000000x1_S1000000x1_S1000000x1_S1000000x1_S1000000x1_S1000000x1_S1000000x1_S1000000x1_S1000000x8_d1 := by
    dsimp only [V]
    simp only [hostOps0, List.flatten_cons, List.flatten_nil, List.append_nil, List.cons_append, List.nil_append]
    after_results
    rfl
  rw [e]
  match j with
  | ⟨0, _⟩ =>
    exact (concat_axis1_apply _ _ 0 (Nat.le_of_ble_eq_true (by rfl)) _ (by rfl) 0 (by rfl) n _ (0 : Fin 1) rfl).trans (column_apply (by decide) _ _ n 0)
  | ⟨1, _⟩ =>
    exact (concat_axis1_apply _ _ 1 (Nat.le_of_ble_eq_true (by rfl)) _ (by rfl) 1 (by rfl) n _ (0 : Fin 1) rfl).trans (column_apply (by decide) _ _ n 0)
  | ⟨2, _⟩ =>
    exact (concat_axis1_apply _ _ 2 (Nat.le_of_ble_eq_true (by rfl)) _ (by rfl) 2 (by rfl) n _ (0 : Fin 1) rfl).trans (column_apply (by decide) _ _ n 0)
  | ⟨3, _⟩ =>
    exact (concat_axis1_apply _ _ 3 (Nat.le_of_ble_eq_true (by rfl)) _ (by rfl) 3 (by rfl) n _ (0 : Fin 1) rfl).trans (column_apply (by decide) _ _ n 0)
  | ⟨4, _⟩ =>
    exact (concat_axis1_apply _ _ 4 (Nat.le_of_ble_eq_true (by rfl)) _ (by rfl) 4 (by rfl) n _ (0 : Fin 1) rfl).trans (column_apply (by decide) _ _ n 0)
  | ⟨5, _⟩ =>
    exact (concat_axis1_apply _ _ 5 (Nat.le_of_ble_eq_true (by rfl)) _ (by rfl) 5 (by rfl) n _ (0 : Fin 1) rfl).trans (column_apply (by decide) _ _ n 0)
  | ⟨6, _⟩ =>
    exact (concat_axis1_apply _ _ 6 (Nat.le_of_ble_eq_true (by rfl)) _ (by rfl) 6 (by rfl) n _ (0 : Fin 1) rfl).trans (column_apply (by decide) _ _ n 0)
  | ⟨7, _⟩ =>
    exact (concat_axis1_apply _ _ 7 (Nat.le_of_ble_eq_true (by rfl)) _ (by rfl) 7 (by rfl) n _ (0 : Fin 1) rfl).trans (column_apply (by decide) _ _ n 0)

/-- Row `p` of the synaptic window's block at point `t` is row `rowIx t p` of the first argument. -/
theorem blk0_apply (c : Dev nD) (t : Fin cfg0.N) (p : Fin 10000) (k : Fin 128) :
    (iblk m c 0 t : Vec Ideal S10000x128 .f32) (ix2 p k)
      = (m ((c : Thread nD τ).loc main_arg0) : S1000000x128.Idx → EReal) (ix2 (rowIx t p) k) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 10000 + 1 * p.val = win0_3.index t (0 : Fin 2) * 10000 + p.val; rw [e0]; omega
  | ⟨1, _⟩ => show win0_0.index t (1 : Fin 2) * 128 + 1 * k.val = k.val; rw [e1]; omega

/-- Row `p` of the dendritic window's block at point `t` is row `rowIx t p` of the third argument. -/
theorem blk1_apply (c : Dev nD) (t : Fin cfg0.N) (p : Fin 10000) (j : Fin 8) :
    (iblk m c 1 t : Vec Ideal S10000x8 .f32) (ix2 p j)
      = (m ((c : Thread nD τ).loc main_arg2) : S1000000x8.Idx → EReal) (ix2 (rowIx t p) j) := by
  obtain ⟨-, -, e0, e1, -⟩ := idx_facts t
  unfold iblk
  rw [View.read_apply]
  show V m c main_arg2 _ = _
  rw [V_main_arg2]
  refine congrArg _ (funext fun a => Fin.ext ?_)
  match a with
  | ⟨0, _⟩ => show win0_1.index t (0 : Fin 2) * 10000 + 1 * p.val = win0_3.index t (0 : Fin 2) * 10000 + p.val; rw [e0]; omega
  | ⟨1, _⟩ => show win0_1.index t (1 : Fin 2) * 8 + 1 * j.val = j.val; rw [e1]; omega

/-- Row `p` of the state window's block at point `t` is the eight state numbers of neuron `rowIx t p`. -/
theorem blk2_apply (c : Dev nD) (t : Fin cfg0.N) (p : Fin 10000) (j : Fin 8) :
    (iblk m c 2 t : Vec Ideal S10000x8 .f32) (ix2 p j)
      = stateOf (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowIx t p) j := by
  obtain ⟨-, -, -, -, e0, e1, -⟩ := idx_facts t
  refine Eq.trans ?_ (V_state m c (rowIx t p) j)
  unfold iblk
  rw [View.read_apply]
  show V m c main_v8 _ = V m c main_v8 _
  refine congrArg _ (funext fun a => Fin.ext ?_)
  match a with
  | ⟨0, _⟩ => show win0_2.index t (0 : Fin 2) * 10000 + 1 * p.val = win0_3.index t (0 : Fin 2) * 10000 + p.val; rw [e0]; omega
  | ⟨1, _⟩ => show win0_2.index t (1 : Fin 2) * 8 + 1 * j.val = j.val; rw [e1]; omega

/-! ## What each point writes back, the cover, the run -/

/-- The specification's result array of this memory's ten arguments. -/
abbrev want (c : Dev nD) : S1000000x13.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- WHAT POINT `t` WRITES BACK is block `t` of the specification's result. -/
theorem flushed_eq (c : Dev nD) (t : Fin cfg0.N) :
    (dats m 0 c).flushed 3 t = ((cfg0.win 3).blk t).view.read (Elt Ideal) (want m c) := by
  show (cfg0.win 3).cut (grid0.coords t) ((dats m 0 c).after 3 t) = _
  rw [after3]
  unfold blockOut
  rw [View.canon_unit_zero hz]
  simp only [View.ld_unit_zero (S := S10000x128) hz, View.ld_unit_zero (S := S10000x8) hz]
  obtain ⟨-, -, -, -, -, -, -, e7⟩ := idx_facts t
  funext y
  obtain ⟨p, q, rfl⟩ : ∃ (p : Fin 10000) (q : Fin 13), y = ix2 p q := ⟨y 0, y 1, eq_ix2 y⟩
  have hemb : ((cfg0.win 3).blk t).view.emb (ix2 p q) = (ix2 (rowIx t p) q : S1000000x13.Idx) := by
    funext a; apply Fin.ext
    match a with
    | ⟨0, _⟩ => show win0_3.index t (0 : Fin 2) * 10000 + 1 * p.val = win0_3.index t (0 : Fin 2) * 10000 + p.val; omega
    | ⟨1, _⟩ => show win0_3.index t (1 : Fin 2) * 13 + 1 * q.val = q.val; rw [e7]; omega
  show stored (iblk m c 0 t) (iblk m c 1 t) (iblk m c 2 t) (ix2 p q) = want m c (((cfg0.win 3).blk t).view.emb (ix2 p q))
  rw [hemb]
  refine (stored_apply (iblk m c 0 t) (iblk m c 1 t) (iblk m c 2 t) p q).trans ?_
  have h0 : synRow (iblk m c 0 t) p = fun k => (m ((c : Thread nD τ).loc main_arg0) : S1000000x128.Idx → EReal) (ix2 (rowIx t p) k) :=
    funext fun k => blk0_apply m c t p k
  have h1 : dpRow (iblk m c 1 t) p = fun j => (m ((c : Thread nD τ).loc main_arg2) : S1000000x8.Idx → EReal) (ix2 (rowIx t p) j) :=
    funext fun j => blk1_apply m c t p j
  have h2 : stRow (iblk m c 2 t) p = stateOf (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (rowIx t p) :=
    funext fun j => blk2_apply m c t p j
  exact congrFun (congr (congr (congrArg rowOut h0) h1) h2) q

/-- An index of the result is in point `t`'s block iff each coordinate is in the block's range on its axis. -/
theorem mem_blk (t : Fin cfg0.N) (i : S1000000x13.Idx) :
    i ∈ ((cfg0.win 3).blk t).view.set ↔ ∀ a : Fin 2, win0_3.index t a * S10000x13.size a ≤ (i a).val ∧ (i a).val < win0_3.index t a * S10000x13.size a + S10000x13.size a := by
  show i ∈ ((View.whole main_v9).slice (win0_3.rect t)).set ↔ _
  rw [View.set_slice_whole, Rect.mem_set_unit]
  exact Iff.rfl

/-- The 100 blocks cover the result: row `r` is in the block of point `r / 10000`. -/
theorem cover (i : S1000000x13.Idx) : ∃ t : Fin cfg0.N, (cfg0.win 3).flush t = true ∧ i ∈ ((cfg0.win 3).blk t).view.set := by
  have hi0 : (i 0).val < 1000000 := (i 0).isLt
  have hi1 : (i 1).val < 13 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 13 ≤ (i 1).val ∧ (i 1).val < win0_3.index t (1 : Fin 2) * 13 + 13; omega

/-- The result array after the run is the specification's. -/
theorem final (c : Dev nD) : (dats m 0 c).arrAt 3 cfg0.N = want m c :=
  (dats m 0 c).arrAt_eq_of_cover 3 (want m c) (fun t _ => flushed_eq m c t) cover

/-- The kernel program's run: it ends with the result array at the specification's result of the arguments, the arguments
    unchanged. -/
theorem run : θ_run defs (onTc (τ := τ) (main (F := Ideal))) ⟨m, fun _ => 0, ρ⟩ fun r => ∀ c : Dev nD,
      r.2.mem ((c.tc : Thread nD τ).loc main_v9) = want m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).1 3).trans (final m c), kept m r h c⟩) (run_main m ρ)

end Cert.KernelIdeal.Final

end
-- ==== Proof.RefRow.lean ====
/-
  The reference program computes the specification's result.

  The reference works on whole arrays: it reshapes the synaptic inputs to [1000000, 8, 16] and sums the last axis, treats
  the dendritic potentials as a [1000000, 8] array and the eight state vectors as vectors of length 1000000, stands five
  result vectors up as columns and joins them with the [1000000, 8] array of new dendritic potentials. Read at row n and
  column q this is the specification's row function of row n of the arguments. Three spellings differ from the
  specification's and are reconciled here: a host sum starts from a zero word (0 + Σ = Σ), a negation is written −x
  (0 − x = −x), and the cube m³ is (m·m)·m (= m·(m·m)).
-/
import proofs.«115508_j35699768165144_2_alg».proof.Proof.RefRead
import proofs.«115508_j35699768165144_2_alg».proof.Proof.SpecArray
import proofs.«115508_j35699768165144_2_alg».proof.Proof.LibRowLayout

set_option maxRecDepth 16384

noncomputable section

namespace Cert.ReferenceIdeal.Row

open Cert.ReferenceIdeal Cert.ReferenceIdeal.ReadP Cert.Neuron Cert.RowLayout
open Idealize.ShloMosaic Idealize.ShloMosaic.ValueIdx
open scoped BigOperators

variable (x0 : (⟨S1000000x128, .f32⟩ : BufTy).Contents (Elt Ideal)) (x1 : (⟨S1000000, .f32⟩ : BufTy).Contents (Elt Ideal)) (x2 : (⟨S1000000x8, .f32⟩ : BufTy).Contents (Elt Ideal))
  (x3 x4 x5 x6 x7 x8 x9 : (⟨S1000000, .f32⟩ : BufTy).Contents (Elt Ideal))

/-- The reshaped synaptic inputs summed over the last axis: entry (n, j) is the sum of lanes 16·j … 16·j + 15 of row n. -/
theorem dendIn_apply (n : Fin 1000000) (j : Fin 8) :
    val_main_v1 (F := Ideal) x0 (ix2 n j) = dendIn (fun k => x0 (ix2 n k)) j := by
  rw [val_main_v1_apply]
  show Ideal.ofBits .f32 0x00000000#32 + _ = _
  rw [Ideal.ofBits_zero_f32, zero_add]
  unfold dendIn
  refine Finset.sum_congr rfl fun k _ => ?_
  rw [val_main_v0_apply]
  refine congrArg x0 (funext fun a => Fin.ext ?_)
  have hn := n.isLt
  have hj := j.isLt
  have hk := k.isLt
  match a with
  | ⟨0, _⟩ => show ((n.val * 8 + j.val) * 16 + k.val) / 128 = n.val; omega
  | ⟨1, _⟩ => show ((n.val * 8 + j.val) * 16 + k.val) % 128 = 16 * j.val + k.val; omega

/-- The new potential of dendrite `j` of neuron `n`. -/
theorem dend_apply (n : Fin 1000000) (j : Fin 8) :
    val_main_v16 (F := Ideal) x0 x2 (ix2 n j) = dendOf (fun k => x0 (ix2 n k)) (fun j => x2 (ix2 n j)) j := by
  unfold dendOf dendNew nmda
  rw [neg0_eq, ← dendIn_apply x0 n j]
  -- the reference's stages between the lane sums and this array, read at the index, outermost first
  rw [val_main_v16_apply, val_main_v15_apply, val_main_v14_apply, val_main_cst_4_apply, val_main_v13_apply, val_main_v12_apply,
    val_main_v11_apply, val_main_v10_apply, val_main_v9_apply, val_main_cst_3_apply, val_main_v8_apply, val_main_v7_apply,
    val_main_cst_2_apply, val_main_v6_apply, val_main_v5_apply, val_main_cst_1_apply, val_main_v4_apply, val_main_v3_apply,
    val_main_v2_apply, val_main_cst_0_apply]
  rfl

/-- The dendritic current of neuron `n`. -/
theorem idend_apply (n : Fin 1000000) :
    val_main_v17 (F := Ideal) x0 x2 (ix1 n) = ∑ j : Fin 8, dendOf (fun k => x0 (ix2 n k)) (fun j => x2 (ix2 n j)) j := by
  rw [val_main_v17_apply]
  show Ideal.ofBits .f32 0x00000000#32 + _ = _
  rw [Ideal.ofBits_zero_f32, zero_add]
  refine Finset.sum_congr rfl fun j _ => ?_
  refine Eq.trans (congrArg (val_main_v16 (F := Ideal) x0 x2) (funext fun a => Fin.ext ?_)) (dend_apply x0 x2 n j)
  match a with
  | ⟨0, _⟩ => rfl
  | ⟨1, _⟩ => rfl

/-- A cube, either way round. -/
theorem cube_comm (x : EReal) : x * (x * x) = x * x * x := mul_comm _ _

/-- The membrane potential of neuron `n` before the reset. -/
theorem pot_apply (n : Fin 1000000) :
    val_main_v133 (F := Ideal) x0 x1 x2 x3 x4 x5 x7 (ix1 n)
      = potential (fun k => x0 (ix2 n k)) (fun j => x2 (ix2 n j)) (x1 (ix1 n)) (x3 (ix1 n)) (x4 (ix1 n)) (x5 (ix1 n)) (x7 (ix1 n)) := by
  unfold potential vNew iNa iK iLeak iAdapt gate alphaM betaM alphaH betaH alphaN betaN ex
  simp only [neg0_eq, cube_comm]
  rw [← idend_apply x0 x2 n]
  -- the reference's stages between the dendritic current and the potential, read at the index, outermost first
  rw [val_main_v133_apply, val_main_v132_apply, val_main_v131_apply, val_main_cst_48_apply, val_main_v130_apply, val_main_v129_apply,
    val_main_v128_apply, val_main_v127_apply, val_main_v126_apply, val_main_v125_apply, val_main_v124_apply, val_main_cst_47_apply,
    val_main_v123_apply, val_main_v122_apply, val_main_cst_46_apply, val_main_v121_apply, val_main_v120_apply, val_main_cst_45_apply,
    val_main_v119_apply, val_main_v118_apply, val_main_v117_apply, val_main_cst_44_apply, val_main_v116_apply, val_main_v115_apply,
    val_main_cst_43_apply, val_main_v114_apply, val_main_v113_apply, val_main_v112_apply, val_main_v111_apply, val_main_v110_apply,
    val_main_cst_42_apply, val_main_v109_apply, val_main_v108_apply, val_main_v107_apply, val_main_cst_41_apply, val_main_v106_apply,
    val_main_v105_apply, val_main_v104_apply, val_main_call2_v4_apply, val_main_call2_v3_apply, val_main_call2_v2_apply, val_main_call2_v1_apply,
    val_main_call2_v0_apply, val_main_cst_40_apply, val_main_cst_39_apply, val_main_v103_apply, val_main_v102_apply, val_main_v101_apply,
    val_main_cst_38_apply, val_main_v100_apply, val_main_v99_apply, val_main_v98_apply, val_main_v97_apply, val_main_v96_apply,
    val_main_cst_37_apply, val_main_v95_apply, val_main_call1_v4_apply, val_main_call1_v3_apply, val_main_call1_v2_apply, val_main_call1_v1_apply,
    val_main_call1_v0_apply, val_main_cst_36_apply, val_main_cst_35_apply, val_main_v94_apply, val_main_v93_apply, val_main_v92_apply,
    val_main_cst_34_apply, val_main_v91_apply, val_main_v90_apply, val_main_v89_apply, val_main_v88_apply, val_main_v87_apply,
    val_main_cst_33_apply, val_main_v86_apply, val_main_call0_v4_apply, val_main_call0_v3_apply, val_main_call0_v2_apply, val_main_call0_v1_apply,
    val_main_call0_v0_apply, val_main_cst_32_apply, val_main_cst_31_apply, val_main_v85_apply, val_main_v84_apply, val_main_v83_apply,
    val_main_cst_30_apply, val_main_v82_apply, val_main_v81_apply, val_main_v80_apply, val_main_v79_apply, val_main_v78_apply,
    val_main_cst_29_apply, val_main_v77_apply, val_main_v76_apply, val_main_cst_28_apply, val_main_v75_apply, val_main_v74_apply,
    val_main_v73_apply, val_main_cst_27_apply, val_main_v72_apply, val_main_v71_apply, val_main_v70_apply, val_main_cst_26_apply,
    val_main_v69_apply, val_main_v68_apply, val_main_v67_apply, val_main_cst_25_apply, val_main_v66_apply, val_main_v65_apply,
    val_main_v64_apply, val_main_cst_24_apply, val_main_v63_apply, val_main_v62_apply, val_main_v61_apply, val_main_cst_23_apply,
    val_main_v60_apply, val_main_v59_apply, val_main_cst_22_apply, val_main_v58_apply, val_main_v57_apply, val_main_cst_21_apply,
    val_main_v56_apply, val_main_v55_apply, val_main_cst_20_apply, val_main_v54_apply, val_main_v53_apply, val_main_cst_19_apply,
    val_main_v52_apply, val_main_v51_apply, val_main_v50_apply, val_main_cst_18_apply, val_main_v49_apply, val_main_v48_apply,
    val_main_v47_apply, val_main_cst_17_apply, val_main_v46_apply, val_main_v45_apply, val_main_cst_16_apply, val_main_v44_apply,
    val_main_v43_apply, val_main_v42_apply, val_main_cst_15_apply, val_main_v41_apply, val_main_v40_apply, val_main_v39_apply,
    val_main_cst_14_apply, val_main_v38_apply, val_main_v37_apply, val_main_cst_13_apply, val_main_v36_apply, val_main_v35_apply,
    val_main_v34_apply, val_main_cst_12_apply, val_main_v33_apply, val_main_v32_apply, val_main_v31_apply, val_main_cst_11_apply,
    val_main_v30_apply, val_main_v29_apply, val_main_v28_apply, val_main_cst_10_apply, val_main_v27_apply, val_main_v26_apply,
    val_main_v25_apply, val_main_cst_9_apply, val_main_v24_apply, val_main_v23_apply, val_main_v22_apply, val_main_cst_8_apply,
    val_main_v21_apply, val_main_v20_apply, val_main_cst_7_apply, val_main_v19_apply, val_main_v18_apply, val_main_cst_6_apply]
  rfl

/-- Whether neuron `n` spiked, as 0 or 1. -/
theorem spike_apply (n : Fin 1000000) :
    val_main_v136 (F := Ideal) x0 x1 x2 x3 x4 x5 x7 (ix1 n)
      = spikeOf (fun k => x0 (ix2 n k)) (fun j => x2 (ix2 n j)) (x1 (ix1 n)) (x3 (ix1 n)) (x4 (ix1 n)) (x5 (ix1 n)) (x7 (ix1 n)) := by
  unfold spikeOf
  rw [val_main_v136_apply, val_main_v135_apply, pot_apply]
  rfl

/-! The five result vectors are stood up as columns: entry (n, 0) of the column is entry n of the vector. -/
theorem idx152 (n : Fin 1000000) : idx_main_v152 (ix2 n (0 : Fin 1)) = ix1 n := funext fun a => match a with | ⟨0, _⟩ => rfl
theorem idx153 (n : Fin 1000000) : idx_main_v153 (ix2 n (0 : Fin 1)) = ix1 n := funext fun a => match a with | ⟨0, _⟩ => rfl
theorem idx154 (n : Fin 1000000) : idx_main_v154 (ix2 n (0 : Fin 1)) = ix1 n := funext fun a => match a with | ⟨0, _⟩ => rfl
theorem idx155 (n : Fin 1000000) : idx_main_v155 (ix2 n (0 : Fin 1)) = ix1 n := funext fun a => match a with | ⟨0, _⟩ => rfl
theorem idx156 (n : Fin 1000000) : idx_main_v156 (ix2 n (0 : Fin 1)) = ix1 n := funext fun a => match a with | ⟨0, _⟩ => rfl

/-- The potential after the reset. -/
theorem reset_apply (n : Fin 1000000) :
    val_main_v139 (F := Ideal) x0 x1 x2 x3 x4 x5 x7 (ix1 n)
      = vOut (val_main_v136 (F := Ideal) x0 x1 x2 x3 x4 x5 x7 (ix1 n)) (val_main_v133 (F := Ideal) x0 x1 x2 x3 x4 x5 x7 (ix1 n)) := by
  rw [val_main_v139_apply, val_main_v138_apply]
  rfl
/-- The new calcium. -/
theorem calcium_apply (n : Fin 1000000) :
    val_main_v146 (F := Ideal) x0 x1 x2 x3 x4 x5 x6 x7 (ix1 n)
      = caNew (x6 (ix1 n)) (val_main_v136 (F := Ideal) x0 x1 x2 x3 x4 x5 x7 (ix1 n)) := by
  rw [val_main_v146_apply, val_main_v144_apply, val_main_v142_apply, val_main_v141_apply]
  rfl
/-- The new pre trace. -/
theorem pre_apply (n : Fin 1000000) : val_main_v148 (F := Ideal) x8 (ix1 n) = preNew (x8 (ix1 n)) := by
  rw [val_main_v148_apply]
  rfl
/-- The new post trace. -/
theorem post_apply (n : Fin 1000000) :
    val_main_v151 (F := Ideal) x0 x1 x2 x3 x4 x5 x7 x9 (ix1 n)
      = postNew (x9 (ix1 n)) (val_main_v136 (F := Ideal) x0 x1 x2 x3 x4 x5 x7 (ix1 n)) := by
  rw [val_main_v151_apply, val_main_v150_apply]
  rfl

/-- THE REFERENCE'S RESULT at row `n`, column `q`. -/
theorem row_apply (n : Fin 1000000) (q : Fin 13) :
    val_main_v157 (F := Ideal) x0 x1 x2 x3 x4 x5 x6 x7 x8 x9 (ix2 n q) = rowResult x0 x1 x2 x3 x4 x5 x6 x7 x8 x9 n q := by
  unfold val_main_v157 rowResult rowOut
  by_cases h0 : q.val = 0
  · rw [if_pos h0]
    refine (concat_axis1_apply _ _ 0 (Nat.le_of_ble_eq_true (by rfl)) _ (by rfl) 0 (by rfl) n q (0 : Fin 1) (by omega)).trans ?_
    rw [val_main_v152_apply, idx152]
    exact spike_apply x0 x1 x2 x3 x4 x5 x7 n
  rw [if_neg h0]
  by_cases h1 : q.val = 1
  · rw [if_pos h1]
    refine (concat_axis1_apply _ _ 1 (Nat.le_of_ble_eq_true (by rfl)) _ (by rfl) 1 (by rfl) n q (0 : Fin 1) (by omega)).trans ?_
    rw [val_main_v153_apply, idx153, reset_apply, spike_apply, pot_apply]
    rfl
  rw [if_neg h1]
  by_cases h2 : q.val = 2
  · rw [if_pos h2]
    refine (concat_axis1_apply _ _ 2 (Nat.le_of_ble_eq_true (by rfl)) _ (by rfl) 2 (by rfl) n q (0 : Fin 1) (by omega)).trans ?_
    rw [val_main_v154_apply, idx154, calcium_apply, spike_apply]
    rfl
  rw [if_neg h2]
  by_cases h3 : q.val < 11
  · rw [dif_pos h3]
    refine (concat_axis1_apply _ _ 3 (Nat.le_of_ble_eq_true (by rfl)) _ (by rfl) 3 (by rfl) n q ⟨q.val - 3, by omega⟩ (by show 3 + (q.val - 3) = q.val; omega)).trans ?_
    exact dend_apply x0 x2 n _
  rw [dif_neg h3]
  by_cases h4 : q.val = 11
  · rw [if_pos h4]
    refine (concat_axis1_apply _ _ 4 (Nat.le_of_ble_eq_true (by rfl)) _ (by rfl) 11 (by rfl) n q (0 : Fin 1) (by omega)).trans ?_
    rw [val_main_v155_apply, idx155, pre_apply]
    rfl
  rw [if_neg h4]
  refine (concat_axis1_apply _ _ 5 (Nat.le_of_ble_eq_true (by rfl)) _ (by rfl) 12 (by rfl) n q (0 : Fin 1) (by have := q.isLt; omega)).trans ?_
  rw [val_main_v156_apply, idx156, post_apply, spike_apply]
  rfl

/-- The reference's result array is the specification's result of its ten arguments. -/
theorem ref_result : val_main_v157 (F := Ideal) x0 x1 x2 x3 x4 x5 x6 x7 x8 x9 = result x0 x1 x2 x3 x4 x5 x6 x7 x8 x9 :=
  funext fun i => by
    obtain ⟨n, q, rfl⟩ : ∃ (n : Fin 1000000) (q : Fin 13), i = ix2 n q := ⟨i 0, i 1, eq_ix2 i⟩
    exact (row_apply x0 x1 x2 x3 x4 x5 x6 x7 x8 x9 n q).trans (result_apply x0 x1 x2 x3 x4 x5 x6 x7 x8 x9 n q).symm

end Cert.ReferenceIdeal.Row

end
-- ==== Proof.lean ====
/-
  The proof of `Cert.Claim` for one step of a population of model neurons.

  Both programs compute, for every neuron, the same row function of the neuron's 128 synaptic inputs, 8 dendritic potentials
  and 8 state numbers (Proof/Spec.lean, Proof/SpecArray.lean). The kernel program joins the eight state vectors into one
  [1000000, 8] array on the host and then runs 100 pipelined grid points of 10000 neurons each; that each point writes back
  its block of the specification's result, and that the blocks cover the result, is Proof/KRow.lean and Proof/KFinal.lean,
  over the program's frame (Proof/FrameKI.lean; Proof/FrameK.lean is the same frame of the word-level program). The
  reference is one host program on whole arrays (Proof/RefRow.lean over its run read one operation at a time). Over the
  extended reals the two agree entry by entry: the only differences are the order of finite sums, 0 − x against −x, and
  m·(m·m) against (m·m)·m, none of which needs the inputs to be finite. The ideal pass rewrote nothing, so `preserves` is
  `True`.
-/
import proofs.«115508_j35699768165144_2_alg».proof.Defs
import proofs.«115508_j35699768165144_2_alg».proof.Proof.Gen.Kernel
import proofs.«115508_j35699768165144_2_alg».proof.Proof.Gen.KernelIdeal
import proofs.«115508_j35699768165144_2_alg».proof.Proof.Gen.ReferenceIdeal
import proofs.«115508_j35699768165144_2_alg».proof.Proof.Gen.Pre_finite_inputs
import proofs.«115508_j35699768165144_2_alg».proof.Proof.FrameK
import proofs.«115508_j35699768165144_2_alg».proof.Proof.FrameKI
import proofs.«115508_j35699768165144_2_alg».proof.Proof.KFinal
import proofs.«115508_j35699768165144_2_alg».proof.Proof.RefRow
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel (hKernel := Cert.Kernel.Gen.facts) (hPre_finite_inputs := Cert.Pre_finite_inputs.Gen.facts) :=
  fun m ρ _ => Cert.Kernel.Fr.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both programs end with the specification's result of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.want m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v157_eq, Cert.ReferenceIdeal.Row.ref_result, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
